-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x30 : Shape := ⟨2, ![100000, 30]⟩
abbrev S2x2000000 : Shape := ⟨2, ![2, 2000000]⟩
abbrev S100000 : Shape := ⟨1, ![100000]⟩
abbrev S30x40 : Shape := ⟨2, ![30, 40]⟩
abbrev S40 : Shape := ⟨1, ![40]⟩
abbrev S40x40 : Shape := ⟨2, ![40, 40]⟩
abbrev S40x2 : Shape := ⟨2, ![40, 2]⟩
abbrev S2 : Shape := ⟨1, ![2]⟩
abbrev S_ : Shape := ⟨0, ![]⟩

class Facts : Prop where
  bcast_S_S100000x30 : S_.BroadcastsInDim S100000x30 (![] : Fin 0 → Fin S100000x30.rank)
  reducesTo_S100000x30_S_d0_1 : S100000x30.ReducesTo [0, 1] S_
  h_S_ : 0 < S_.numel
  bcast_S_S30x40 : S_.BroadcastsInDim S30x40 (![] : Fin 0 → Fin S30x40.rank)
  reducesTo_S30x40_S_d0_1 : S30x40.ReducesTo [0, 1] S_
  bcast_S_S40 : S_.BroadcastsInDim S40 (![] : Fin 0 → Fin S40.rank)
  reducesTo_S40_S_d0 : S40.ReducesTo [0] S_
  bcast_S_S40x40 : S_.BroadcastsInDim S40x40 (![] : Fin 0 → Fin S40x40.rank)
  reducesTo_S40x40_S_d0_1 : S40x40.ReducesTo [0, 1] S_
  bcast_S_S40x2 : S_.BroadcastsInDim S40x2 (![] : Fin 0 → Fin S40x2.rank)
  reducesTo_S40x2_S_d0_1 : S40x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S40x2 .f32) (main_arg10 : FVec F S2 .f32) (main_v33 : IVec S_ 1) : IVec S_ 1 :=
  let main_v34 : FVec F S40x2 .f32 := Host.absf main_arg9
  let main_cst_12 : FVec F S_ .f32 := constant S_ .f32 0x7F800000#32
  let main_v35 : FVec F S40x2 .f32 := broadcastInDim S40x2 ![] bcast_S_S40x2 main_cst_12
  let main_v36 : IVec S40x2 1 := cmpf .olt main_v34 main_v35
  let main_c_13 : IVec S_ 1 := constantI S_ 1 1#1
  let main_v37 : IVec S_ 1 := (fun x v => Host.reduce IntOp.andi x v reducesTo_S40x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S40 .f32) (main_arg7 : FVec F S40x40 .f32) (main_arg8 : FVec F S40 .f32) (main_arg9 : FVec F S40x2 .f32) (main_arg10 : FVec F S2 .f32) (main_v13 : IVec S_ 1) (main_v16 : IVec S40x40 1) : IVec S_ 1 :=
  let main_c_5 : IVec S_ 1 := constantI S_ 1 1#1
  let main_v17 : IVec S_ 1 := (fun x v => Host.reduce IntOp.andi x v reducesTo_S40x40_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S40x40 .f32 := Host.absf main_arg7
  let main_cst_8 : FVec F S_ .f32 := constant S_ .f32 0x7F800000#32
  let main_v25 : FVec F S40x40 .f32 := broadcastInDim S40x40 ![] bcast_S_S40x40 main_cst_8
  let main_v26 : IVec S40x40 1 := cmpf .olt main_v24 main_v25
  let main_c_9 : IVec S_ 1 := constantI S_ 1 1#1
  let main_v27 : IVec S_ 1 := (fun x v => Host.reduce IntOp.andi x v reducesTo_S40x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg9 main_arg10 main_v33

def fn {F : FTy → Type} [FloatOps F] (main_arg0 : FVec F S100000x30 .f32) (main_arg1 : IVec S2x2000000 32) (main_arg2 : IVec S100000 32) (main_arg3 : FVec F S30x40 .f32) (main_arg4 : FVec F S40 .f32) (main_arg5 : FVec F S40x40 .f32) (main_arg6 : FVec F S40 .f32) (main_arg7 : FVec F S40x40 .f32) (main_arg8 : FVec F S40 .f32) (main_arg9 : FVec F S40x2 .f32) (main_arg10 : FVec F S2 .f32) : IVec S_ 1 :=
  let main_v0 : FVec F S100000x30 .f32 := Host.absf main_arg0
  let main_cst : FVec F S_ .f32 := constant S_ .f32 0x7F800000#32
  let main_v1 : FVec F S100000x30 .f32 := broadcastInDim S100000x30 ![] bcast_S_S100000x30 main_cst
  let main_v2 : IVec S100000x30 1 := cmpf .olt main_v0 main_v1
  let main_c : IVec S_ 1 := constantI S_ 1 1#1
  let main_v3 : IVec S_ 1 := (fun x v => Host.reduce IntOp.andi x v reducesTo_S100000x30_S_d0_1 h_S_) main_v2 main_c
  let main_v4 : FVec F S30x40 .f32 := Host.absf main_arg3
  let main_cst_0 : FVec F S_ .f32 := constant S_ .f32 0x7F800000#32
  let main_v5 : FVec F S30x40 .f32 := broadcastInDim S30x40 ![] bcast_S_S30x40 main_cst_0
  let main_v6 : IVec S30x40 1 := cmpf .olt main_v4 main_v5
  let main_c_1 : IVec S_ 1 := constantI S_ 1 1#1
  let main_v7 : IVec S_ 1 := (fun x v => Host.reduce IntOp.andi x v reducesTo_S30x40_S_d0_1 h_S_) main_v6 main_c_1
  let main_v8 : IVec S_ 1 := andi main_v3 main_v7
  let main_v9 : FVec F S40 .f32 := Host.absf main_arg4
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  let main_v14 : FVec F S40x40 .f32 := Host.absf main_arg5
  let main_cst_4 : FVec F S_ .f32 := constant S_ .f32 0x7F800000#32
  let main_v15 : FVec F S40x40 .f32 := broadcastInDim S40x40 ![] bcast_S_S40x40 main_cst_4
  let main_v16 : IVec S40x40 1 := cmpf .olt main_v14 main_v15
  fn_part1 (F := F) main_arg6 main_arg7 main_arg8 main_arg9 main_arg10 main_v13 main_v16
-- ==== Kernel.lean ====
abbrev S100000x30 : Shape := ⟨2, ![100000, 30]⟩
abbrev S2x2000000 : Shape := ⟨2, ![2, 2000000]⟩
abbrev S100000 : Shape := ⟨1, ![100000]⟩
abbrev S30x40 : Shape := ⟨2, ![30, 40]⟩
abbrev S40 : Shape := ⟨1, ![40]⟩
abbrev S40x40 : Shape := ⟨2, ![40, 40]⟩
abbrev S40x2 : Shape := ⟨2, ![40, 2]⟩
abbrev S2 : Shape := ⟨1, ![2]⟩
abbrev S1x2000000 : Shape := ⟨2, ![1, 2000000]⟩
abbrev S2000000 : Shape := ⟨1, ![2000000]⟩
abbrev S2100000 : Shape := ⟨1, ![2100000]⟩
abbrev S_ : Shape := ⟨0, ![]⟩
abbrev S2100000x1 : Shape := ⟨2, ![2100000, 1]⟩
abbrev S1x40 : Shape := ⟨2, ![1, 40]⟩
abbrev S1x2 : Shape := ⟨2, ![1, 2]⟩
abbrev S100000x40 : Shape := ⟨2, ![100000, 40]⟩
abbrev S20000x30 : Shape := ⟨2, ![20000, 30]⟩
abbrev S20000x40 : Shape := ⟨2, ![20000, 40]⟩
abbrev S2100000x40 : Shape := ⟨2, ![2100000, 40]⟩
abbrev S1024x40 : Shape := ⟨2, ![1024, 40]⟩
abbrev S100000x1 : Shape := ⟨2, ![100000, 1]⟩
abbrev S1024 : Shape := ⟨1, ![1024]⟩
abbrev S1024x1 : Shape := ⟨2, ![1024, 1]⟩
abbrev S1024x2 : Shape := ⟨2, ![1024, 2]⟩

abbrev nBuf : Space → Nat
  | .hbm => 125
  | .vmem => 26
  | .smem => 0
  | _ => 0

abbrev bufTy : (tb : Table) → Fin (tcTables nBuf tb) → BufTy
  | .hbm, ⟨0, _⟩ => ⟨S100000x30, .f32⟩
  | .hbm, ⟨1, _⟩ => ⟨S2x2000000, .i32⟩
  | .hbm, ⟨2, _⟩ => ⟨S100000, .i32⟩
  | .hbm, ⟨3, _⟩ => ⟨S30x40, .f32⟩
  | .hbm, ⟨4, _⟩ => ⟨S40, .f32⟩
  | .hbm, ⟨5, _⟩ => ⟨S40x40, .f32⟩
  | .hbm, ⟨6, _⟩ => ⟨S40, .f32⟩
  | .hbm, ⟨7, _⟩ => ⟨S40x40, .f32⟩
  | .hbm, ⟨8, _⟩ => ⟨S40, .f32⟩
  | .hbm, ⟨9, _⟩ => ⟨S40x2, .f32⟩
  | .hbm, ⟨10, _⟩ => ⟨S2, .f32⟩
  | .hbm, ⟨11, _⟩ => ⟨S100000, .i32⟩
  | .hbm, ⟨12, _⟩ => ⟨S1x2000000, .i32⟩
  | .hbm, ⟨13, _⟩ => ⟨S2000000, .i32⟩
  | .hbm, ⟨14, _⟩ => ⟨S2100000, .i32⟩
  | .hbm, ⟨15, _⟩ => ⟨S1x2000000, .i32⟩
  | .hbm, ⟨16, _⟩ => ⟨S2000000, .i32⟩
  | .hbm, ⟨17, _⟩ => ⟨S2100000, .i32⟩
  | .hbm, ⟨18, _⟩ => ⟨S_, .f32⟩
  | .hbm, ⟨19, _⟩ => ⟨S2100000, .f32⟩
  | .hbm, ⟨20, _⟩ => ⟨S_, .f32⟩
  | .hbm, ⟨21, _⟩ => ⟨S100000, .f32⟩
  | .hbm, ⟨22, _⟩ => ⟨S2100000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S2100000, .i32⟩
  | .hbm, ⟨37, _⟩ => ⟨S2100000, .i1⟩
  | .hbm, ⟨38, _⟩ => ⟨S_, .i32⟩
  | .hbm, ⟨39, _⟩ => ⟨S2100000, .i32⟩
  | .hbm, ⟨40, _⟩ => ⟨S2100000, .i32⟩
  | .hbm, ⟨41, _⟩ => ⟨S2100000, .i32⟩
  | .hbm, ⟨42, _⟩ => ⟨S2100000x1, .i32⟩
  | .hbm, ⟨43, _⟩ => ⟨S2100000, .f32⟩
  | .hbm, ⟨44, _⟩ => ⟨S_, .i32⟩
  | .hbm, ⟨45, _⟩ => ⟨S2100000, .i32⟩
  | .hbm, ⟨46, _⟩ => ⟨S2100000, .i1⟩
  | .hbm, ⟨47, _⟩ => ⟨S_, .i32⟩
  | .hbm, ⟨48, _⟩ => ⟨S2100000, .i32⟩
  | .hbm, ⟨49, _⟩ => ⟨S2100000, .i32⟩
  | .hbm, ⟨50, _⟩ => ⟨S2100000, .i32⟩
  | .hbm, ⟨51, _⟩ => ⟨S2100000x1, .i32⟩
  | .hbm, ⟨52, _⟩ => ⟨S2100000, .f32⟩
  | .hbm, ⟨53, _⟩ => ⟨S2100000, .f32⟩
  | .hbm, ⟨54, _⟩ => ⟨S2100000x1, .f32⟩
  | .hbm, ⟨55, _⟩ => ⟨S1x40, .f32⟩
  | .hbm, ⟨56, _⟩ => ⟨S1x40, .f32⟩
  | .hbm, ⟨57, _⟩ => ⟨S1x40, .f32⟩
  | .hbm, ⟨58, _⟩ => ⟨S1x2, .f32⟩
  | .hbm, ⟨59, _⟩ => ⟨S100000x40, .f32⟩
  | .hbm, ⟨60, _⟩ => ⟨S_, .i32⟩
  | .hbm, ⟨61, _⟩ => ⟨S2100000, .i32⟩
  | .hbm, ⟨62, _⟩ => ⟨S2100000, .i1⟩
  | .hbm, ⟨63, _⟩ => ⟨S_, .i32⟩
  | .hbm, ⟨64, _⟩ => ⟨S2100000, .i32⟩
  | .hbm, ⟨65, _⟩ => ⟨S2100000, .i32⟩
  | .hbm, ⟨66, _⟩ => ⟨S2100000, .i32⟩
  | .hbm, ⟨67, _⟩ => ⟨S2100000x1, .i32⟩
  | .hbm, ⟨68, _⟩ => ⟨S2100000x40, .f32⟩
  | .hbm, ⟨69, _⟩ => ⟨S2100000x40, .f32⟩
  | .hbm, ⟨70, _⟩ => ⟨S2100000x40, .f32⟩
  | .hbm, ⟨71, _⟩ => ⟨S_, .f32⟩
  | .hbm, ⟨72, _⟩ => ⟨S100000x40, .f32⟩
  | .hbm, ⟨73, _⟩ => ⟨S2100000x1, .i32⟩
  | .hbm, ⟨74, _⟩ => ⟨S100000x40, .f32⟩
  | .hbm, ⟨75, _⟩ => ⟨S100000x40, .f32⟩
  | .hbm, ⟨76, _⟩ => ⟨S_, .i32⟩
  | .hbm, ⟨77, _⟩ => ⟨S2100000, .i32⟩
  | .hbm, ⟨78, _⟩ => ⟨S2100000, .i1⟩
  | .hbm, ⟨79, _⟩ => ⟨S_, .i32⟩
  | .hbm, ⟨80, _⟩ => ⟨S2100000, .i32⟩
  | .hbm, ⟨81, _⟩ => ⟨S2100000, .i32⟩
  | .hbm, ⟨82, _⟩ => ⟨S2100000, .i32⟩
  | .hbm, ⟨83, _⟩ => ⟨S2100000x1, .i32⟩
  | .hbm, ⟨84, _⟩ => ⟨S2100000x40, .f32⟩
  | .hbm, ⟨85, _⟩ => ⟨S2100000x40, .f32⟩
  | .hbm, ⟨86, _⟩ => ⟨S2100000x40, .f32⟩
  | .hbm, ⟨87, _⟩ => ⟨S_, .f32⟩
  | .hbm, ⟨88, _⟩ => ⟨S100000x40, .f32⟩
  | .hbm, ⟨89, _⟩ => ⟨S2100000x1, .i32⟩
  | .hbm, ⟨90, _⟩ => ⟨S100000x40, .f32⟩
  | .hbm, ⟨91, _⟩ => ⟨S100000x40, .f32⟩
  | .hbm, ⟨92, _⟩ => ⟨S_, .i32⟩
  | .hbm, ⟨93, _⟩ => ⟨S2100000, .i32⟩
  | .hbm, ⟨94, _⟩ => ⟨S2100000, .i1⟩
  | .hbm, ⟨95, _⟩ => ⟨S_, .i32⟩
  | .hbm, ⟨96, _⟩ => ⟨S2100000, .i32⟩
  | .hbm, ⟨97, _⟩ => ⟨S2100000, .i32⟩
  | .hbm, ⟨98, _⟩ => ⟨S2100000, .i32⟩
  | .hbm, ⟨99, _⟩ => ⟨S2100000x1, .i32⟩
  | .hbm, ⟨100, _⟩ => ⟨S2100000x40, .f32⟩
  | .hbm, ⟨101, _⟩ => ⟨S2100000x40, .f32⟩
  | .hbm, ⟨102, _⟩ => ⟨S2100000x40, .f32⟩
  | .hbm, ⟨103, _⟩ => ⟨S_, .f32⟩
  | .hbm, ⟨104, _⟩ => ⟨S100000x40, .f32⟩
  | .hbm, ⟨105, _⟩ => ⟨S2100000x1, .i32⟩
  | .hbm, ⟨106, _⟩ => ⟨S100000x40, .f32⟩
  | .hbm, ⟨107, _⟩ => ⟨S100000x40, .f32⟩
  | .hbm, ⟨108, _⟩ => ⟨S_, .f32⟩
  | .hbm, ⟨109, _⟩ => ⟨S1024x40, .f32⟩
  | .hbm, ⟨110, _⟩ => ⟨S100000x1, .i32⟩
  | .hbm, ⟨111, _⟩ => ⟨S1024x40, .f32⟩
  | .hbm, ⟨112, _⟩ => ⟨S_, .f32⟩
  | .hbm, ⟨113, _⟩ => ⟨S100000, .f32⟩
  | .hbm, ⟨114, _⟩ => ⟨S_, .f32⟩
  | .hbm, ⟨115, _⟩ => ⟨S1024, .f32⟩
  | .hbm, ⟨116, _⟩ => ⟨S100000x1, .i32⟩
  | .hbm, ⟨117, _⟩ => ⟨S1024, .f32⟩
  | .hbm, ⟨118, _⟩ => ⟨S_, .f32⟩
  | .hbm, ⟨119, _⟩ => ⟨S1024, .f32⟩
  | .hbm, ⟨120, _⟩ => ⟨S1024, .f32⟩
  | .hbm, ⟨121, _⟩ => ⟨S1024x1, .f32⟩
  | .hbm, ⟨122, _⟩ => ⟨S1024x40, .f32⟩
  | .hbm, ⟨123, _⟩ => ⟨S1024x40, .f32⟩
  | .hbm, ⟨124, _⟩ => ⟨S1024x2, .f32⟩
  | .local _ .vmem, ⟨0, _⟩ => ⟨S20000x30, .f32⟩
  | .local _ .vmem, ⟨1, _⟩ => ⟨S20000x30, .f32⟩
  | .local _ .vmem, ⟨2, _⟩ => ⟨S30x40, .f32⟩
  | .local _ .vmem, ⟨3, _⟩ => ⟨S20000x40, .f32⟩
  | .local _ .vmem, ⟨4, _⟩ => ⟨S20000x40, .f32⟩
  | .local _ .vmem, ⟨5, _⟩ => ⟨S20000x40, .f32⟩
  | .local _ .vmem, ⟨6, _⟩ => ⟨S20000x40, .f32⟩
  | .local _ .vmem, ⟨7, _⟩ => ⟨S1x40, .f32⟩
  | .local _ .vmem, ⟨8, _⟩ => ⟨S40x40, .f32⟩
  | .local _ .vmem, ⟨9, _⟩ => ⟨S20000x40, .f32⟩
  | .local _ .vmem, ⟨10, _⟩ => ⟨S20000x40, .f32⟩
  | .local _ .vmem, ⟨11, _⟩ => ⟨S20000x40, .f32⟩
  | .local _ .vmem, ⟨12, _⟩ => ⟨S20000x40, .f32⟩
  | .local _ .vmem, ⟨13, _⟩ => ⟨S1x40, .f32⟩
  | .local _ .vmem, ⟨14, _⟩ => ⟨S40x40, .f32⟩
  | .local _ .vmem, ⟨15, _⟩ => ⟨S20000x40, .f32⟩
  | .local _ .vmem, ⟨16, _⟩ => ⟨S20000x40, .f32⟩
  | .local _ .vmem, ⟨17, _⟩ => ⟨S20000x40, .f32⟩
  | .local _ .vmem, ⟨18, _⟩ => ⟨S20000x40, .f32⟩
  | .local _ .vmem, ⟨19, _⟩ => ⟨S1x40, .f32⟩
  | .local _ .vmem, ⟨20, _⟩ => ⟨S20000x40, .f32⟩
  | .local _ .vmem, ⟨21, _⟩ => ⟨S20000x40, .f32⟩
  | .local _ .vmem, ⟨22, _⟩ => ⟨S1024x40, .f32⟩
  | .local _ .vmem, ⟨23, _⟩ => ⟨S40x2, .f32⟩
  | .local _ .vmem, ⟨24, _⟩ => ⟨S1x2, .f32⟩
  | .local _ .vmem, ⟨25, _⟩ => ⟨S1024x2, .f32⟩
  | _, _ => ⟨S100000x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_16 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_17 : Ref sig .tc := ⟨.hbm, 112, rfl⟩
abbrev main_v80 : Ref sig .tc := ⟨.hbm, 113, rfl⟩
abbrev main_cst_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_19 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem2_0 : DmaSem sig := 24
abbrev cc4_sem3_0 : DmaSem sig := 25

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S30x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x40 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x40 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S40x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S40x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S20000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S20000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1024x40 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S40x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1024x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x2000000_S1x2000000_0_0 : S2x2000000.Slices ![0, 0] S1x2000000
  shapeCasts_S1x2000000_S2000000 : S1x2000000.ShapeCasts S2000000
  concatenates_S2000000_S100000_S2100000_d0 : Shape.Concatenates [S2000000, S100000] S2100000 0
  slices_S2x2000000_S1x2000000_1_0 : S2x2000000.Slices ![1, 0] S1x2000000
  bcast_S_S2100000 : S_.BroadcastsInDim S2100000 (![] : Fin 0 → Fin S2100000.rank)
  bcast_S_S100000 : S_.BroadcastsInDim S100000 (![] : Fin 0 → Fin S100000.rank)
  bcast_S2100000_S2100000x1_0 : S2100000.BroadcastsInDim S2100000x1 (![0] : Fin 1 → Fin S2100000x1.rank)
  shapeCasts_S40_S1x40 : S40.ShapeCasts S1x40
  shapeCasts_S2_S1x2 : S2.ShapeCasts S1x2
  inb_S20000x30_S20000x30_0_0 : ∀ a, (![0, 0] : Fin 2 → Nat) a + S20000x30.size a ≤ S20000x30.size a
  h_S20000x30 : 0 < S20000x30.numel
  bitsLt_bf16_f32 : FTy.bits .bf16 < FTy.bits .f32
  inb_S30x40_S30x40_0_0 : ∀ a, (![0, 0] : Fin 2 → Nat) a + S30x40.size a ≤ S30x40.size a
  h_S30x40 : 0 < S30x40.numel
  inb_S20000x40_S20000x40_0_0 : ∀ a, (![0, 0] : Fin 2 → Nat) a + S20000x40.size a ≤ S20000x40.size a
  h_S20000x40 : 0 < S20000x40.numel
  bcast_S2100000x1_S2100000x40_0_1 : S2100000x1.BroadcastsInDim S2100000x40 (![0, 1] : Fin 2 → Fin S2100000x40.rank)
  bcast_S_S100000x40 : S_.BroadcastsInDim S100000x40 (![] : Fin 0 → Fin S100000x40.rank)
  shapeCasts_S20000x40_S20000x40 : S20000x40.ShapeCasts S20000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S20000x40 : S1x40.Broadcasts S20000x40
  inb_S40x40_S40x40_0_0 : ∀ a, (![0, 0] : Fin 2 → Nat) a + S40x40.size a ≤ S40x40.size a
  h_S40x40 : 0 < S40x40.numel
  bcast_S_S1024x40 : S_.BroadcastsInDim S1024x40 (![] : Fin 0 → Fin S1024x40.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x40_0_1 : S1024x1.BroadcastsInDim S1024x40 (![0, 1] : Fin 2 → Fin S1024x40.rank)
  inb_S1024x40_S1024x40_0_0 : ∀ a, (![0, 0] : Fin 2 → Nat) a + S1024x40.size a ≤ S1024x40.size a
  h_S1024x40 : 0 < S1024x40.numel
  shapeCasts_S1024x40_S1024x40 : S1024x40.ShapeCasts S1024x40
  inb_S40x2_S40x2_0_0 : ∀ a, (![0, 0] : Fin 2 → Nat) a + S40x2.size a ≤ S40x2.size a
  h_S40x2 : 0 < S40x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  scatter_S100000_S2100000x1_S2100000_n_0_0_1_wf : ScatterDims.WF S100000 S2100000x1 S2100000 [] [0] [0] 1
  gather_S100000_S2100000x1_S2100000_n_0_n_n_0_1_1_wf : GatherDims.WF S100000 S2100000x1 S2100000 [] [0] [] [0] [] 1 ![1]
  dot_S20000x30_S30x40_S20000x40_1_0_0_1_n_n_wf : DotDims.WF S20000x30 S30x40 S20000x40 [1] [0] [0] [1] [] []
  gather_S100000x40_S2100000x1_S2100000x40_1_0_n_n_0_1_140_wf : GatherDims.WF S100000x40 S2100000x1 S2100000x40 [1] [0] [] [0] [] 1 ![1, 40]
  scatter_S100000x40_S2100000x1_S2100000x40_1_0_0_1_wf : ScatterDims.WF S100000x40 S2100000x1 S2100000x40 [1] [0] [0] 1
  dot_S20000x40_S40x40_S20000x40_1_0_0_1_n_n_wf : DotDims.WF S20000x40 S40x40 S20000x40 [1] [0] [0] [1] [] []
  scatter_S1024x40_S100000x1_S100000x40_1_0_0_1_wf : ScatterDims.WF S1024x40 S100000x1 S100000x40 [1] [0] [0] 1
  scatter_S1024_S100000x1_S100000_n_0_0_1_wf : ScatterDims.WF S1024 S100000x1 S100000 [] [0] [0] 1
  dot_S1024x40_S40x2_S1024x2_1_0_0_1_n_n_wf : DotDims.WF S1024x40 S40x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x30.size a ≤ S100000x30.size a
  hwx0_0 : ∀ i : grid0.Coords, EltTy.bits .f32 = 32 ∨ (Rect.block (s := S100000x30) S20000x30.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S30x40.size a ≤ S30x40.size a
  hwx0_1 : ∀ i : grid0.Coords, EltTy.bits .f32 = 32 ∨ (Rect.block (s := S30x40) S30x40.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x40.size a ≤ S100000x40.size a
  hwx0_2 : ∀ i : grid0.Coords, EltTy.bits .f32 = 32 ∨ (Rect.block (s := S100000x40) S20000x40.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x40.size a ≤ S100000x40.size a
  hwx1_0 : ∀ i : grid1.Coords, EltTy.bits .f32 = 32 ∨ (Rect.block (s := S100000x40) S20000x40.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x40.size a ≤ S1x40.size a
  hwx1_1 : ∀ i : grid1.Coords, EltTy.bits .f32 = 32 ∨ (Rect.block (s := S1x40) S1x40.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S40x40.size a ≤ S40x40.size a
  hwx1_2 : ∀ i : grid1.Coords, EltTy.bits .f32 = 32 ∨ (Rect.block (s := S40x40) S40x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x40.size a ≤ S100000x40.size a
  hwx1_3 : ∀ i : grid1.Coords, EltTy.bits .f32 = 32 ∨ (Rect.block (s := S100000x40) S20000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x40.size a ≤ S100000x40.size a
  hwx2_0 : ∀ i : grid2.Coords, EltTy.bits .f32 = 32 ∨ (Rect.block (s := S100000x40) S20000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S40x40.size a ≤ S40x40.size a
  hwx2_2 : ∀ i : grid2.Coords, EltTy.bits .f32 = 32 ∨ (Rect.block (s := S40x40) S40x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S20000x40.size a ≤ S100000x40.size a
  hwx2_3 : ∀ i : grid2.Coords, EltTy.bits .f32 = 32 ∨ (Rect.block (s := S100000x40) S20000x40.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x40.size a ≤ S100000x40.size a
  hwx3_0 : ∀ i : grid3.Coords, EltTy.bits .f32 = 32 ∨ (Rect.block (s := S100000x40) S20000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S20000x40.size a ≤ S100000x40.size a
  hwx3_2 : ∀ i : grid3.Coords, EltTy.bits .f32 = 32 ∨ (Rect.block (s := S100000x40) S20000x40.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1024x40.size a ≤ S1024x40.size a
  hwx4_0 : ∀ i : grid4.Coords, EltTy.bits .f32 = 32 ∨ (Rect.block (s := S1024x40) S1024x40.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S40x2.size a ≤ S40x2.size a
  hwx4_1 : ∀ i : grid4.Coords, EltTy.bits .f32 = 32 ∨ (Rect.block (s := S40x2) S40x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1024x2.size a ≤ S1024x2.size a
  hwx4_3 : ∀ i : grid4.Coords, EltTy.bits .f32 = 32 ∨ (Rect.block (s := S1024x2) S1024x2.size (cc4_transform_3 i) (hinb4_3 i)).WholeWords (EltTy.packing .f32)

variable [Facts₀]

def scatter_S100000_S2100000x1_S2100000_n_0_0_1 : ScatterDims S100000 S2100000x1 S2100000 where
  updateWindowDims := []
  insertedWindowDims := [0]
  scatterDimsToOperandDims := [0]
  indexVectorDim := 1
  wf := scatter_S100000_S2100000x1_S2100000_n_0_0_1_wf
def gather_S100000_S2100000x1_S2100000_n_0_n_n_0_1_1 : GatherDims S100000 S2100000x1 S2100000 where
  offsetDims := []
  collapsedSliceDims := [0]
  operandBatchingDims := []
  startIndicesBatchingDims := []
  startIndexMap := [0]
  indexVectorDim := 1
  sliceSizes := ![1]
  wf := gather_S100000_S2100000x1_S2100000_n_0_n_n_0_1_1_wf
def dot_S20000x30_S30x40_S20000x40_1_0_0_1_n_n : DotDims S20000x30 S30x40 S20000x40 where
  lhsContracting := [1]
  rhsContracting := [0]
  lhsNonContracting := [0]
  rhsNonContracting := [1]
  lhsBatch := []
  rhsBatch := []
  wf := dot_S20000x30_S30x40_S20000x40_1_0_0_1_n_n_wf
def gather_S100000x40_S2100000x1_S2100000x40_1_0_n_n_0_1_140 : GatherDims S100000x40 S2100000x1 S2100000x40 where
  offsetDims := [1]
  collapsedSliceDims := [0]
  operandBatchingDims := []
  startIndicesBatchingDims := []
  startIndexMap := [0]
  indexVectorDim := 1
  sliceSizes := ![1, 40]
  wf := gather_S100000x40_S2100000x1_S2100000x40_1_0_n_n_0_1_140_wf
def scatter_S100000x40_S2100000x1_S2100000x40_1_0_0_1 : ScatterDims S100000x40 S2100000x1 S2100000x40 where
  updateWindowDims := [1]
  insertedWindowDims := [0]
  scatterDimsToOperandDims := [0]
  indexVectorDim := 1
  wf := scatter_S100000x40_S2100000x1_S2100000x40_1_0_0_1_wf
def dot_S20000x40_S40x40_S20000x40_1_0_0_1_n_n : DotDims S20000x40 S40x40 S20000x40 where
  lhsContracting := [1]
  rhsContracting := [0]
  lhsNonContracting := [0]
  rhsNonContracting := [1]
  lhsBatch := []
  rhsBatch := []
  wf := dot_S20000x40_S40x40_S20000x40_1_0_0_1_n_n_wf
def scatter_S1024x40_S100000x1_S100000x40_1_0_0_1 : ScatterDims S1024x40 S100000x1 S100000x40 where
  updateWindowDims := [1]
  insertedWindowDims := [0]
  scatterDimsToOperandDims := [0]
  indexVectorDim := 1
  wf := scatter_S1024x40_S100000x1_S100000x40_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x40_S40x2_S1024x2_1_0_0_1_n_n : DotDims S1024x40 S40x2 S1024x2 where
  lhsContracting := [1]
  rhsContracting := [0]
  lhsNonContracting := [0]
  rhsNonContracting := [1]
  lhsBatch := []
  rhsBatch := []
  wf := dot_S1024x40_S40x2_S1024x2_1_0_0_1_n_n_wf

abbrev win0_0 : Pipeline.Window sig grid0 :=
  Pipeline.Window.ofSpec (Memref.whole main_arg0) S20000x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S30x40.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S20000x40.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S20000x40.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S40x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S20000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S20000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S40x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S20000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v75) S20000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S20000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v88) S1024x40.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S40x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v36) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v89) S1024x2.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x30 : Shape := ⟨2, ![100000, 30]⟩
abbrev S2x2000000 : Shape := ⟨2, ![2, 2000000]⟩
abbrev S100000 : Shape := ⟨1, ![100000]⟩
abbrev S30x40 : Shape := ⟨2, ![30, 40]⟩
abbrev S40 : Shape := ⟨1, ![40]⟩
abbrev S40x40 : Shape := ⟨2, ![40, 40]⟩
abbrev S40x2 : Shape := ⟨2, ![40, 2]⟩
abbrev S2 : Shape := ⟨1, ![2]⟩
abbrev S1x2000000 : Shape := ⟨2, ![1, 2000000]⟩
abbrev S2000000 : Shape := ⟨1, ![2000000]⟩
abbrev S2100000 : Shape := ⟨1, ![2100000]⟩
abbrev S_ : Shape := ⟨0, ![]⟩
abbrev S2100000x1 : Shape := ⟨2, ![2100000, 1]⟩
abbrev S100000x40 : Shape := ⟨2, ![100000, 40]⟩
abbrev S2100000x40 : Shape := ⟨2, ![2100000, 40]⟩
abbrev S1x40 : Shape := ⟨2, ![1, 40]⟩
abbrev S1024x40 : Shape := ⟨2, ![1024, 40]⟩
abbrev S100000x1 : Shape := ⟨2, ![100000, 1]⟩
abbrev S1024 : Shape := ⟨1, ![1024]⟩
abbrev S1024x1 : Shape := ⟨2, ![1024, 1]⟩
abbrev S1024x2 : Shape := ⟨2, ![1024, 2]⟩
abbrev S1x2 : Shape := ⟨2, ![1, 2]⟩

abbrev nBuf : Space → Nat
  | .hbm => 141
  | .vmem => 0
  | .smem => 0
  | _ => 0

abbrev hbmTy0_0 (i : Nat) : BufTy := match i % 128 with
  | 0 => ⟨S100000x30, .f32⟩
  | 1 => ⟨S2x2000000, .i32⟩
  | 2 => ⟨S100000, .i32⟩
  | 3 => ⟨S30x40, .f32⟩
  | 4 => ⟨S40, .f32⟩
  | 5 => ⟨S40x40, .f32⟩
  | 6 => ⟨S40, .f32⟩
  | 7 => ⟨S40x40, .f32⟩
  | 8 => ⟨S40, .f32⟩
  | 9 => ⟨S40x2, .f32⟩
  | 10 => ⟨S2, .f32⟩
  | 11 => ⟨S100000, .i32⟩
  | 12 => ⟨S1x2000000, .i32⟩
  | 13 => ⟨S2000000, .i32⟩
  | 14 => ⟨S2100000, .i32⟩
  | 15 => ⟨S1x2000000, .i32⟩
  | 16 => ⟨S2000000, .i32⟩
  | 17 => ⟨S2100000, .i32⟩
  | 18 => ⟨S_, .f32⟩
  | 19 => ⟨S2100000, .f32⟩
  | 20 => ⟨S_, .f32⟩
  | 21 => ⟨S100000, .f32⟩
  | 22 => ⟨S2100000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S2100000, .i32⟩
  | 37 => ⟨S2100000, .i1⟩
  | 38 => ⟨S_, .i32⟩
  | 39 => ⟨S2100000, .i32⟩
  | 40 => ⟨S2100000, .i32⟩
  | 41 => ⟨S2100000, .i32⟩
  | 42 => ⟨S2100000x1, .i32⟩
  | 43 => ⟨S2100000, .f32⟩
  | 44 => ⟨S_, .i32⟩
  | 45 => ⟨S2100000, .i32⟩
  | 46 => ⟨S2100000, .i1⟩
  | 47 => ⟨S_, .i32⟩
  | 48 => ⟨S2100000, .i32⟩
  | 49 => ⟨S2100000, .i32⟩
  | 50 => ⟨S2100000, .i32⟩
  | 51 => ⟨S2100000x1, .i32⟩
  | 52 => ⟨S2100000, .f32⟩
  | 53 => ⟨S2100000, .f32⟩
  | 54 => ⟨S2100000x1, .f32⟩
  | 55 => ⟨S100000x40, .f32⟩
  | 56 => ⟨S_, .i32⟩
  | 57 => ⟨S2100000, .i32⟩
  | 58 => ⟨S2100000, .i1⟩
  | 59 => ⟨S_, .i32⟩
  | 60 => ⟨S2100000, .i32⟩
  | 61 => ⟨S2100000, .i32⟩
  | 62 => ⟨S2100000, .i32⟩
  | 63 => ⟨S2100000x1, .i32⟩
  | 64 => ⟨S2100000x40, .f32⟩
  | 65 => ⟨S2100000x40, .f32⟩
  | 66 => ⟨S2100000x40, .f32⟩
  | 67 => ⟨S_, .f32⟩
  | 68 => ⟨S100000x40, .f32⟩
  | 69 => ⟨S2100000x1, .i32⟩
  | 70 => ⟨S100000x40, .f32⟩
  | 71 => ⟨S1x40, .f32⟩
  | 72 => ⟨S100000x40, .f32⟩
  | 73 => ⟨S100000x40, .f32⟩
  | 74 => ⟨S_, .f32⟩
  | 75 => ⟨S100000x40, .f32⟩
  | 76 => ⟨S100000x40, .f32⟩
  | 77 => ⟨S100000x40, .f32⟩
  | 78 => ⟨S_, .i32⟩
  | 79 => ⟨S2100000, .i32⟩
  | 80 => ⟨S2100000, .i1⟩
  | 81 => ⟨S_, .i32⟩
  | 82 => ⟨S2100000, .i32⟩
  | 83 => ⟨S2100000, .i32⟩
  | 84 => ⟨S2100000, .i32⟩
  | 85 => ⟨S2100000x1, .i32⟩
  | 86 => ⟨S2100000x40, .f32⟩
  | 87 => ⟨S2100000x40, .f32⟩
  | 88 => ⟨S2100000x40, .f32⟩
  | 89 => ⟨S_, .f32⟩
  | 90 => ⟨S100000x40, .f32⟩
  | 91 => ⟨S2100000x1, .i32⟩
  | 92 => ⟨S100000x40, .f32⟩
  | 93 => ⟨S1x40, .f32⟩
  | 94 => ⟨S100000x40, .f32⟩
  | 95 => ⟨S100000x40, .f32⟩
  | 96 => ⟨S_, .f32⟩
  | 97 => ⟨S100000x40, .f32⟩
  | 98 => ⟨S100000x40, .f32⟩
  | 99 => ⟨S100000x40, .f32⟩
  | 100 => ⟨S_, .i32⟩
  | 101 => ⟨S2100000, .i32⟩
  | 102 => ⟨S2100000, .i1⟩
  | 103 => ⟨S_, .i32⟩
  | 104 => ⟨S2100000, .i32⟩
  | 105 => ⟨S2100000, .i32⟩
  | 106 => ⟨S2100000, .i32⟩
  | 107 => ⟨S2100000x1, .i32⟩
  | 108 => ⟨S2100000x40, .f32⟩
  | 109 => ⟨S2100000x40, .f32⟩
  | 110 => ⟨S2100000x40, .f32⟩
  | 111 => ⟨S_, .f32⟩
  | 112 => ⟨S100000x40, .f32⟩
  | 113 => ⟨S2100000x1, .i32⟩
  | 114 => ⟨S100000x40, .f32⟩
  | 115 => ⟨S1x40, .f32⟩
  | 116 => ⟨S100000x40, .f32⟩
  | 117 => ⟨S100000x40, .f32⟩
  | 118 => ⟨S_, .f32⟩
  | 119 => ⟨S100000x40, .f32⟩
  | 120 => ⟨S100000x40, .f32⟩
  | 121 => ⟨S_, .f32⟩
  | 122 => ⟨S1024x40, .f32⟩
  | 123 => ⟨S100000x1, .i32⟩
  | 124 => ⟨S1024x40, .f32⟩
  | 125 => ⟨S_, .f32⟩
  | 126 => ⟨S100000, .f32⟩
  | 127 => ⟨S_, .f32⟩
  | _ => ⟨S100000x30, .f32⟩

abbrev hbmTy0_1 (i : Nat) : BufTy := match i % 128 with
  | 0 => ⟨S1024, .f32⟩
  | 1 => ⟨S100000x1, .i32⟩
  | 2 => ⟨S1024, .f32⟩
  | 3 => ⟨S_, .f32⟩
  | 4 => ⟨S1024, .f32⟩
  | 5 => ⟨S1024, .f32⟩
  | 6 => ⟨S1024x1, .f32⟩
  | 7 => ⟨S1024x40, .f32⟩
  | 8 => ⟨S1024x40, .f32⟩
  | 9 => ⟨S1024x2, .f32⟩
  | 10 => ⟨S1x2, .f32⟩
  | 11 => ⟨S1024x2, .f32⟩
  | 12 => ⟨S1024x2, .f32⟩
  | _ => ⟨S100000x30, .f32⟩

abbrev hbmTy (i : Nat) : BufTy := match i / 128 with
  | 0 => hbmTy0_0 i
  | 1 => hbmTy0_1 i
  | _ => ⟨S100000x30, .f32⟩

abbrev bufTy : (tb : Table) → Fin (tcTables nBuf tb) → BufTy
  | .hbm, ⟨i, _⟩ => hbmTy i
  | _, _ => ⟨S100000x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_call2_cst : Ref sig .tc := ⟨.hbm, 96, rfl⟩
abbrev main_call2_v0 : Ref sig .tc := ⟨.hbm, 97, rfl⟩
abbrev main_v66 : Ref sig .tc := ⟨.hbm, 98, rfl⟩
abbrev main_v67 : Ref sig .tc := ⟨.hbm, 99, rfl⟩
abbrev main_c_13 : Ref sig .tc := ⟨.hbm, 100, rfl⟩
abbrev main_v68 : Ref sig .tc := ⟨.hbm, 101, rfl⟩
abbrev main_v69 : Ref sig .tc := ⟨.hbm, 102, rfl⟩
abbrev main_c_14 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_15 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_call3_cst : Ref sig .tc := ⟨.hbm, 118, rfl⟩
abbrev main_call3_v0 : Ref sig .tc := ⟨.hbm, 119, rfl⟩
abbrev main_v83 : Ref sig .tc := ⟨.hbm, 120, rfl⟩
abbrev main_cst_16 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_17 : Ref sig .tc := ⟨.hbm, 125, rfl⟩
abbrev main_v87 : Ref sig .tc := ⟨.hbm, 126, rfl⟩
abbrev main_cst_18 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_19 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  concatenates_S2000000_S100000_S2100000_d0 : Shape.Concatenates [S2000000, S100000] S2100000 0
  slices_S2x2000000_S1x2000000_1_0 : S2x2000000.Slices ![1, 0] S1x2000000
  bcast_S_S2100000 : S_.BroadcastsInDim S2100000 (![] : Fin 0 → Fin S2100000.rank)
  bcast_S_S100000 : S_.BroadcastsInDim S100000 (![] : Fin 0 → Fin S100000.rank)
  bcast_S2100000_S2100000x1_0 : S2100000.BroadcastsInDim S2100000x1 (![0] : Fin 1 → Fin S2100000x1.rank)
  bcast_S2100000x1_S2100000x40_0_1 : S2100000x1.BroadcastsInDim S2100000x40 (![0, 1] : Fin 2 → Fin S2100000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S_S1024x40 : S_.BroadcastsInDim S1024x40 (![] : Fin 0 → Fin S1024x40.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x40_0_1 : S1024x1.BroadcastsInDim S1024x40 (![0, 1] : Fin 2 → Fin S1024x40.rank)
  bcast_S2_S1x2_1 : S2.BroadcastsInDim S1x2 (![1] : Fin 1 → Fin S1x2.rank)
  bcast_S1x2_S1024x2_0_1 : S1x2.BroadcastsInDim S1024x2 (![0, 1] : Fin 2 → Fin S1024x2.rank)
  scatter_S100000_S2100000x1_S2100000_n_0_0_1_wf : ScatterDims.WF S100000 S2100000x1 S2100000 [] [0] [0] 1
  gather_S100000_S2100000x1_S2100000_n_0_n_n_0_1_1_wf : GatherDims.WF S100000 S2100000x1 S2100000 [] [0] [] [0] [] 1 ![1]
  dot_S100000x30_S30x40_S100000x40_1_0_0_1_n_n_wf : DotDims.WF S100000x30 S30x40 S100000x40 [1] [0] [0] [1] [] []
  gather_S100000x40_S2100000x1_S2100000x40_1_0_n_n_0_1_140_wf : GatherDims.WF S100000x40 S2100000x1 S2100000x40 [1] [0] [] [0] [] 1 ![1, 40]
  scatter_S100000x40_S2100000x1_S2100000x40_1_0_0_1_wf : ScatterDims.WF S100000x40 S2100000x1 S2100000x40 [1] [0] [0] 1
  dot_S100000x40_S40x40_S100000x40_1_0_0_1_n_n_wf : DotDims.WF S100000x40 S40x40 S100000x40 [1] [0] [0] [1] [] []
  scatter_S1024x40_S100000x1_S100000x40_1_0_0_1_wf : ScatterDims.WF S1024x40 S100000x1 S100000x40 [1] [0] [0] 1
  scatter_S1024_S100000x1_S100000_n_0_0_1_wf : ScatterDims.WF S1024 S100000x1 S100000 [] [0] [0] 1
  dot_S1024x40_S40x2_S1024x2_1_0_0_1_n_n_wf : DotDims.WF S1024x40 S40x2 S1024x2 [1] [0] [0] [1] [] []

variable [Facts₀]

def scatter_S100000_S2100000x1_S2100000_n_0_0_1 : ScatterDims S100000 S2100000x1 S2100000 where
  updateWindowDims := []
  insertedWindowDims := [0]
  scatterDimsToOperandDims := [0]
  indexVectorDim := 1
  wf := scatter_S100000_S2100000x1_S2100000_n_0_0_1_wf
def gather_S100000_S2100000x1_S2100000_n_0_n_n_0_1_1 : GatherDims S100000 S2100000x1 S2100000 where
  offsetDims := []
  collapsedSliceDims := [0]
  operandBatchingDims := []
  startIndicesBatchingDims := []
  startIndexMap := [0]
  indexVectorDim := 1
  sliceSizes := ![1]
  wf := gather_S100000_S2100000x1_S2100000_n_0_n_n_0_1_1_wf
def dot_S100000x30_S30x40_S100000x40_1_0_0_1_n_n : DotDims S100000x30 S30x40 S100000x40 where
  lhsContracting := [1]
  rhsContracting := [0]
  lhsNonContracting := [0]
  rhsNonContracting := [1]
  lhsBatch := []
  rhsBatch := []
  wf := dot_S100000x30_S30x40_S100000x40_1_0_0_1_n_n_wf
def gather_S100000x40_S2100000x1_S2100000x40_1_0_n_n_0_1_140 : GatherDims S100000x40 S2100000x1 S2100000x40 where
  offsetDims := [1]
  collapsedSliceDims := [0]
  operandBatchingDims := []
  startIndicesBatchingDims := []
  startIndexMap := [0]
  indexVectorDim := 1
  sliceSizes := ![1, 40]
  wf := gather_S100000x40_S2100000x1_S2100000x40_1_0_n_n_0_1_140_wf
def scatter_S100000x40_S2100000x1_S2100000x40_1_0_0_1 : ScatterDims S100000x40 S2100000x1 S2100000x40 where
  updateWindowDims := [1]
  insertedWindowDims := [0]
  scatterDimsToOperandDims := [0]
  indexVectorDim := 1
  wf := scatter_S100000x40_S2100000x1_S2100000x40_1_0_0_1_wf
def dot_S100000x40_S40x40_S100000x40_1_0_0_1_n_n : DotDims S100000x40 S40x40 S100000x40 where
  lhsContracting := [1]
  rhsContracting := [0]
  lhsNonContracting := [0]
  rhsNonContracting := [1]
  lhsBatch := []
  rhsBatch := []
  wf := dot_S100000x40_S40x40_S100000x40_1_0_0_1_n_n_wf
def scatter_S1024x40_S100000x1_S100000x40_1_0_0_1 : ScatterDims S1024x40 S100000x1 S100000x40 where
  updateWindowDims := [1]
  insertedWindowDims := [0]
  scatterDimsToOperandDims := [0]
  indexVectorDim := 1
  wf := scatter_S1024x40_S100000x1_S100000x40_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x40_S40x2_S1024x2_1_0_0_1_n_n : DotDims S1024x40 S40x2 S1024x2 where
  lhsContracting := [1]
  rhsContracting := [0]
  lhsNonContracting := [0]
  rhsNonContracting := [1]
  lhsBatch := []
  rhsBatch := []
  wf := dot_S1024x40_S40x2_S1024x2_1_0_0_1_n_n_wf

class Facts : Prop extends Facts₀ where

variable [Facts]
-- ==== Proof.Run.lean ====
/-
  The whole program's run, with the final buffer contents named.  The program is twelve segments: stretches of host
  operations and five regions.  The contents of every buffer at each segment boundary are a fold from the launch memory;
  at the return every buffer that is not a region's scratch holds the last boundary's contents.  So the result buffer
  ends at the last boundary's contents of it, and every argument as launched.
-/
import proofs.«172641_j618475290672_1_alg».proof.Proof.Gen.KernelIdeal.Frame

set_option maxRecDepth 16384

noncomputable section

namespace Cert.KernelIdeal.Flow

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and the argument arrays as launched. -/
theorem run : θ_run defs (onTc (τ := τ) (main (F := F))) ⟨m, fun _ => 0, ρ⟩ (fun r => ∀ c : Dev nD,
      r.2.mem ((c.tc : Thread nD τ).loc main_v89) = W12 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v89 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.Flow

end
-- ==== Proof.LibLayerLaws.lean ====
/-
  A two-layer mean-aggregation network on the extended reals, read entry by entry.

  One layer sends node features `x`, neighbour sums `s` and a per-node scale to
      elu ( (∑ₖ mean(p,k) · Wl(k,q)) + b(q) + ∑ₖ x(p,k) · Wr(k,q) ),       elu y = y for y > 0, eʸ − 1 otherwise,
  where the mean is written either as the quotient `s(p,k) / c(p)` or as the product `s(p,k) · (1 / c(p))`.
  The two spellings agree whenever `c(p) ≠ 0`: on the extended reals a quotient by a non-zero `c` IS the product with
  `c⁻¹`, and `1 / c = c⁻¹`.  Nothing here distributes a product over a sum, so no entry needs to be finite.

  Also here: the exponential-linear unit in the two spellings a program writes it in, and a matrix product
  `[a, k] × [k, b]` contracting the inner axis, read at `(p, q)` as a sum over `Fin k`.
-/
import Idealize.ShloMosaic.Lib.ValueIdx
import Idealize.ShloMosaic.PureOps.Ideal.Laws
import Idealize.ShloMosaic.PureOps.IdealRules

noncomputable section

open scoped BigOperators

namespace Cert.LayerLaws

open Idealize.ShloMosaic Idealize.ShloMosaic.ValueIdx

/-! ## The exponential-linear unit -/

/-- `elu y = y` above zero, `eʸ − 1` at and below it. -/
def elu1 (y : EReal) : EReal := if 0 < y then y else Ideal.exp y - 1

/-- The binary32 word of `1.0` denotes `1`. -/
theorem one_f32 : Ideal.ofBits .f32 0x3F800000#32 = 1 := IdealRules.sign_bit.ideal_onePat .f32

/-- "select (y > 0) y (exp (min y 0) − 1)" is `elu`: off the positive side `min y 0 = y`. -/
theorem elu_min_form (y : EReal) :
    Scalar.select (Ideal.cmp .ogt y (Ideal.ofBits .f32 0x00000000#32)) y
        (Ideal.exp (min y (Ideal.ofBits .f32 0x00000000#32)) - Ideal.ofBits .f32 0x3F800000#32) = elu1 y := by
  rw [Ideal.ofBits_zero_f32, one_f32]
  unfold elu1 Scalar.select Ideal.cmp
  by_cases h : 0 < y
  · simp [h]
  · have hy : y ≤ 0 := not_lt.mp h
    simp [h, min_eq_left hy]

/-- "select (y > 0) y (1 · expm1 (select (y > 0) 0 y))" is `elu` too: `expm1 z = eᶻ − 1` and `1 · z = z`. -/
theorem elu_expm1_form (y : EReal) :
    Scalar.select (Ideal.cmp .ogt y (Ideal.ofBits .f32 0x00000000#32)) y
        (Ideal.ofBits .f32 0x3F800000#32 *
          (Ideal.exp (Scalar.select (Ideal.cmp .ogt y (Ideal.ofBits .f32 0x00000000#32)) (Ideal.ofBits .f32 0x00000000#32) y) - 1))
      = elu1 y := by
  rw [Ideal.ofBits_zero_f32, one_f32]
  unfold elu1 Scalar.select Ideal.cmp
  by_cases h : 0 < y
  · simp [h]
  · simp [h]

/-! ## Quotient and reciprocal -/

/-- A product with the reciprocal `1 / c` of a non-zero `c` is the quotient by `c`. -/
theorem mul_one_div (a c : EReal) (hc : c ≠ 0) :
    a * Ideal.div (Ideal.ofBits .f32 0x3F800000#32) c = Ideal.div a c := by
  rw [one_f32]
  unfold Ideal.div
  rw [if_neg hc, if_neg hc, one_mul]

/-- A maximum with `1.0` is not zero. -/
theorem max_one_ne_zero (a : EReal) : max a (Ideal.ofBits .f32 0x3F800000#32) ≠ 0 := by
  rw [one_f32]
  exact ne_of_gt (lt_of_lt_of_le zero_lt_one (le_max_right a 1))

/-! ## The layer, entry by entry -/

/-- Arrays of extended reals of shape `[n, k]`. -/
abbrev Mat (n k : ℕ) := (⟨2, ![n, k]⟩ : Shape).Idx → EReal

variable {n : ℕ}

/-- A layer before its activation at `(p, q)`, the mean written as a product with a per-row scale `[n, 1]`
    and the bias as a row `[1, 64]`. -/
def preMul (x s : Mat n 64) (inv : Mat n 1) (Wl : Mat 64 64) (b : Mat 1 64) (Wr : Mat 64 64) (p : Fin n) (q : Fin 64) : EReal :=
  (∑ k : Fin 64, (s (ix2 p k) * inv (ix2 p (0 : Fin 1))) * Wl (ix2 k q)) + b (ix2 (0 : Fin 1) q)
    + ∑ k : Fin 64, x (ix2 p k) * Wr (ix2 k q)

/-- The layer with that spelling, as an array. -/
def layerMul (x s : Mat n 64) (inv : Mat n 1) (Wl : Mat 64 64) (b : Mat 1 64) (Wr : Mat 64 64) : Mat n 64 :=
  fun i => elu1 (preMul x s inv Wl b Wr ⟨(i 0).val, idx2_lt0 i⟩ ⟨(i 1).val, idx2_lt1 i⟩)

theorem layerMul_apply (x s : Mat n 64) (inv : Mat n 1) (Wl : Mat 64 64) (b : Mat 1 64) (Wr : Mat 64 64) (p : Fin n) (q : Fin 64) :
    layerMul x s inv Wl b Wr (ix2 p q) = elu1 (preMul x s inv Wl b Wr p q) := rfl

/-- A final linear map of an `[n, 64]` array at `(p, q)`, its bias a row `[1, 64]`. -/
def linRow (h : Mat n 64) (W : Mat 64 64) (b : Mat 1 64) : Mat n 64 :=
  fun i => (∑ k : Fin 64, h (ix2 (⟨(i 0).val, idx2_lt0 i⟩ : Fin n) k) * W (ix2 k (⟨(i 1).val, idx2_lt1 i⟩ : Fin 64)))
    + b (ix2 (0 : Fin 1) (⟨(i 1).val, idx2_lt1 i⟩ : Fin 64))

theorem linRow_apply (h : Mat n 64) (W : Mat 64 64) (b : Mat 1 64) (p : Fin n) (q : Fin 64) :
    linRow h W b (ix2 p q) = (∑ k : Fin 64, h (ix2 p k) * W (ix2 k q)) + b (ix2 (0 : Fin 1) q) := rfl

/-- A layer before its activation at `(p, q)`, the mean written as a quotient by a per-node count `[n]`
    and the bias as a vector `[64]`. -/
def preDiv (x s : Mat n 64) (c : (⟨1, ![n]⟩ : Shape).Idx → EReal) (Wl : Mat 64 64) (b : (⟨1, ![64]⟩ : Shape).Idx → EReal)
    (Wr : Mat 64 64) (p : Fin n) (q : Fin 64) : EReal :=
  (∑ k : Fin 64, Ideal.div (s (ix2 p k)) (c (ix1 p)) * Wl (ix2 k q)) + b (ix1 q)
    + ∑ k : Fin 64, x (ix2 p k) * Wr (ix2 k q)

/-- The two spellings of a layer agree when the scale is the reciprocal of a count that is nowhere zero and the
    bias row is the bias vector. -/
theorem preMul_eq_preDiv (x s : Mat n 64) (inv : Mat n 1) (c : (⟨1, ![n]⟩ : Shape).Idx → EReal)
    (Wl : Mat 64 64) (b2 : Mat 1 64) (b : (⟨1, ![64]⟩ : Shape).Idx → EReal) (Wr : Mat 64 64) (p : Fin n) (q : Fin 64)
    (hinv : inv (ix2 p (0 : Fin 1)) = Ideal.div (Ideal.ofBits .f32 0x3F800000#32) (c (ix1 p))) (hc : c (ix1 p) ≠ 0)
    (hb : b2 (ix2 (0 : Fin 1) q) = b (ix1 q)) :
    preMul x s inv Wl b2 Wr p q = preDiv x s c Wl b Wr p q := by
  unfold preMul preDiv
  rw [hinv, hb]
  refine congrArg (· + _) (congrArg (· + _) (Finset.sum_congr rfl fun k _ => ?_))
  rw [mul_one_div _ _ hc]

/-! ## A matrix product contracting the inner axis -/

variable {a k b : ℕ} {φ₁ φ₂ : FTy}

/-- The contraction sum of `[a, k] × [k, b]` at entry `(p, q)`, re-indexed by the contracted coordinate — from four
    facts about the dimension record's operand indices, which each use proves by evaluating its record. -/
theorem sum_inner (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

end Cert.LayerLaws

end
-- ==== Proof.LibDenseStages.lean ====
/-
  The dense stages of a graph convolution network on the extended reals, read entry by entry.

  A matrix product `[a, k] × [k, b]` at `(p, q)` is the sum over the inner coordinate of the products of row `p` and
  column `q`; a bias row `[1, b]` added to every row and clamped below at zero is `max (x(p,q) + r(0,q)) 0`.  Both read
  row `p` of their first operand only, so a tile of rows of the result is the result of the tile: that is all a
  row-blocked computation needs, and no entry has to be finite (nothing here distributes a product over a sum).
-/
import Idealize.ShloMosaic.Lib.ValueIdx
import Idealize.ShloMosaic.Lib.Pipeline.Value
import Idealize.ShloMosaic.Lib.ValueLayout
import Idealize.ShloMosaic.PureOps.Ideal.Laws
import proofs.«172641_j618475290672_1_alg».proof.Proof.LibLayerLaws

noncomputable section

open scoped BigOperators

namespace Cert.Gcn

open Idealize.ShloMosaic Idealize.ShloMosaic.ValueIdx Cert.LayerLaws

variable {a k b n N : ℕ} {φ₁ φ₂ : FTy}

/-! ## The two stages -/

/-- The matrix product, as an array. -/
def mm (x : Mat a k) (w : Mat k b) : Mat a b :=
  fun i => ∑ j : Fin k, x (ix2 (⟨(i 0).val, idx2_lt0 i⟩ : Fin a) j) * w (ix2 j (⟨(i 1).val, idx2_lt1 i⟩ : Fin b))

theorem mm_apply (x : Mat a k) (w : Mat k b) (p : Fin a) (q : Fin b) :
    mm x w (ix2 p q) = ∑ j : Fin k, x (ix2 p j) * w (ix2 j q) := rfl

/-- A bias row added to every row, then the positive part. -/
def biasRelu (x : Mat a b) (r : Mat 1 b) : Mat a b :=
  fun i => max (x i + r (ix2 (0 : Fin 1) (⟨(i 1).val, idx2_lt1 i⟩ : Fin b))) 0

theorem biasRelu_apply (x : Mat a b) (r : Mat 1 b) (p : Fin a) (q : Fin b) :
    biasRelu x r (ix2 p q) = max (x (ix2 p q) + r (ix2 (0 : Fin 1) q)) 0 := rfl

/-- A bias row added to every row. -/
def addRow (x : Mat a b) (r : Mat 1 b) : Mat a b :=
  fun i => x i + r (ix2 (0 : Fin 1) (⟨(i 1).val, idx2_lt1 i⟩ : Fin b))

theorem addRow_apply (x : Mat a b) (r : Mat 1 b) (p : Fin a) (q : Fin b) :
    addRow x r (ix2 p q) = x (ix2 p q) + r (ix2 (0 : Fin 1) q) := rfl

/-- A vector as a one-row array. -/
def rowVec (v : (⟨1, ![b]⟩ : Shape).Idx → EReal) : Mat 1 b :=
  fun i => v (ix1 (⟨(i 1).val, idx2_lt1 i⟩ : Fin b))

theorem rowVec_apply (v : (⟨1, ![b]⟩ : Shape).Idx → EReal) (u : Fin 1) (q : Fin b) : rowVec v (ix2 u q) = v (ix1 q) := rfl

/-- A vector recast as `[1, b]` is that row. -/
theorem shapeCast_rowVec (v : (⟨1, ![b]⟩ : Shape).Idx → EReal) (h : (⟨1, ![b]⟩ : Shape).ShapeCasts ⟨2, ![1, b]⟩) :
    shapeCast ⟨2, ![1, b]⟩ v h = rowVec v := by
  funext i
  obtain ⟨u, q, rfl⟩ : ∃ (u : Fin 1) (q : Fin b), i = ix2 u q := ⟨i 0, i 1, eq_ix2 i⟩
  exact shapeCast_a_1a_apply v h u q

/-- A vector broadcast along a new leading unit axis is that row too. -/
theorem bcast_rowVec (v : (⟨1, ![b]⟩ : Shape).Idx → EReal) (h : (⟨1, ![b]⟩ : Shape).BroadcastsInDim ⟨2, ![1, b]⟩ ![1]) :
    broadcastInDim ⟨2, ![1, b]⟩ ![1] h v = rowVec v := by
  funext i
  obtain ⟨u, q, rfl⟩ : ∃ (u : Fin 1) (q : Fin b), i = ix2 u q := ⟨i 0, i 1, eq_ix2 i⟩
  refine broadcastInDim_apply ![1] h v (ix2 u q) (ix1 q) fun ax => ?_
  match ax with
  | ⟨0, _⟩ =>
    show q.val = if b = 1 then 0 else q.val
    split
    · have := q.isLt; omega
    · rfl

/-- A one-row array broadcast over `a` rows, read at `(p, q)`. -/
theorem bcast_rows_apply (r : Mat 1 b) (h : (⟨2, ![1, b]⟩ : Shape).BroadcastsInDim ⟨2, ![a, b]⟩ ![0, 1]) (p : Fin a) (q : Fin b) :
    broadcastInDim ⟨2, ![a, b]⟩ ![0, 1] h r (ix2 p q) = r (ix2 (0 : Fin 1) q) := by
  refine broadcastInDim_apply ![0, 1] h r (ix2 p q) (ix2 (0 : Fin 1) q) fun ax => ?_
  match ax with
  | ⟨0, _⟩ => rfl
  | ⟨1, _⟩ =>
    show q.val = if b = 1 then 0 else q.val
    split
    · have := q.isLt; omega
    · rfl

/-- A scalar broadcast to any shape, read anywhere. -/
theorem bcast_scalar_apply {t : Shape} (x : (⟨0, ![]⟩ : Shape).Idx → EReal) (h : (⟨0, ![]⟩ : Shape).BroadcastsInDim t ![]) (j : t.Idx) :
    broadcastInDim t ![] h x j = x ix0 :=
  broadcastInDim_apply ![] h x j ix0 fun ax => ax.elim0

/-! ## A tile of rows of a stage is the stage of the tile -/

theorem mm_rows (e : Fin n → Fin N) (x : Mat n k) (X : Mat N k) (w : Mat k b)
    (hx : ∀ r j, x (ix2 r j) = X (ix2 (e r) j)) (r : Fin n) (q : Fin b) :
    mm x w (ix2 r q) = mm X w (ix2 (e r) q) := by
  rw [mm_apply, mm_apply]
  exact Finset.sum_congr rfl fun j _ => by rw [hx r j]

theorem biasRelu_rows (e : Fin n → Fin N) (x : Mat n b) (X : Mat N b) (r0 : Mat 1 b)
    (hx : ∀ r q, x (ix2 r q) = X (ix2 (e r) q)) (r : Fin n) (q : Fin b) :
    biasRelu x r0 (ix2 r q) = biasRelu X r0 (ix2 (e r) q) := by
  rw [biasRelu_apply, biasRelu_apply, hx r q]

/-! ## The two spellings of a product: the accelerator's, into a zero accumulator, and the host's -/

/-- A `[a, k] × [k, b]` product into a zero accumulator at `(p, q)`, from the four facts about the record's operand indices. -/
theorem matmul_zero_apply (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (x : FVec Ideal ⟨2, ![a, k]⟩ φ₁) (w : FVec Ideal ⟨2, ![k, b]⟩ φ₂) (p : Fin a) (q : Fin b) :
    FloatOps.matmul D none x w (constant ⟨2, ![a, b]⟩ .f32 0x00000000#32) (ix2 p q) = ∑ j : Fin k, x (ix2 p j) * w (ix2 j q) :=
  (Ideal.matmul_constant_zero_apply D none x w (ix2 p q)).trans (sum_inner D hr hs hl0 hl1 hr0 hr1 x w p q)

/-- The host's product at `(p, q)`, the same way. -/
theorem dotGeneral_apply (D : DotDims ⟨2, ![a, k]⟩ ⟨2, ![k, b]⟩ ⟨2, ![a, b]⟩) (sched : HostSchedule)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (x : FVec Ideal ⟨2, ![a, k]⟩ φ₁) (w : FVec Ideal ⟨2, ![k, b]⟩ φ₂) (p : Fin a) (q : Fin b) :
    FloatOps.dotGeneral D none sched x w (ix2 p q) = ∑ j : Fin k, x (ix2 p j) * w (ix2 j q) :=
  (Ideal.dotGeneral_apply D none sched x w (ix2 p q)).trans (sum_inner D hr hs hl0 hl1 hr0 hr1 x w p q)

end Cert.Gcn

end
-- ==== Proof.Region0.lean ====
/-
  The first dense stage: the node features times the first weight matrix, both rounded to a narrower format on the way in
  (the identity on the extended reals).  The stage runs over five tiles of 20000 rows; tile `t` holds rows
  `20000·t … 20000·t + 19999` of the features and the whole weight matrix, so what it writes back is tile `t` of the
  product of the whole arrays, and the five tiles cover the array.
-/
import proofs.«172641_j618475290672_1_alg».proof.Proof.Gen.KernelIdeal.Frame
import proofs.«172641_j618475290672_1_alg».proof.Proof.LibDenseStages

noncomputable section

namespace Cert.KernelIdeal.Flow0

open Cert.KernelIdeal Cert.KernelIdeal.Gen Idealize.ShloMosaic Idealize.ShloMosaic.TcCoe Idealize.ShloMosaic.ValueIdx
open Idealize.SL.Sem Cert.Gcn
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The product record's operand indices: the left operand at (row, inner), the right at (inner, column). -/
theorem lhs0 (i) (q : dot_S20000x30_S30x40_S20000x40_1_0_0_1_n_n.contr.Idx) : (dot_S20000x30_S30x40_S20000x40_1_0_0_1_n_n.lhsIdx i q 0).val = (i 0).val := by
  unfold DotDims.lhsIdx
  rw [dif_neg (show ¬(0 : Fin S20000x30.rank) ∈ dot_S20000x30_S30x40_S20000x40_1_0_0_1_n_n.lhsBatch by decide), dif_pos (show (0 : Fin S20000x30.rank) ∈ dot_S20000x30_S30x40_S20000x40_1_0_0_1_n_n.lhsNonContracting by decide)]
  rfl
theorem lhs1 (i) (q : dot_S20000x30_S30x40_S20000x40_1_0_0_1_n_n.contr.Idx) : (dot_S20000x30_S30x40_S20000x40_1_0_0_1_n_n.lhsIdx i q 1).val = (q ⟨0, by decide⟩).val :=
  dot_S20000x30_S30x40_S20000x40_1_0_0_1_n_n.lhsIdx_val_of_single rfl i q
theorem rhs0 (i) (q : dot_S20000x30_S30x40_S20000x40_1_0_0_1_n_n.contr.Idx) : (dot_S20000x30_S30x40_S20000x40_1_0_0_1_n_n.rhsIdx i q 0).val = (q ⟨0, by decide⟩).val :=
  dot_S20000x30_S30x40_S20000x40_1_0_0_1_n_n.rhsIdx_val_of_single rfl i q
theorem rhs1 (i) (q : dot_S20000x30_S30x40_S20000x40_1_0_0_1_n_n.contr.Idx) : (dot_S20000x30_S30x40_S20000x40_1_0_0_1_n_n.rhsIdx i q 1).val = (i 1).val := by
  unfold DotDims.rhsIdx
  rw [dif_neg (show ¬(1 : Fin S30x40.rank) ∈ dot_S20000x30_S30x40_S20000x40_1_0_0_1_n_n.rhsBatch by decide), dif_pos (show (1 : Fin S30x40.rank) ∈ dot_S20000x30_S30x40_S20000x40_1_0_0_1_n_n.rhsNonContracting by decide)]
  rfl

/-- The body's arithmetic at an entry of the tile: the product into a zero accumulator. -/
theorem pay_apply (x0 : Vec Ideal S20000x30 .f32) (x1 : Vec Ideal S30x40 .f32) (r : Fin 20000) (q : Fin 40) :
    k0_pay1 x0 x1 (ix2 r q) = mm (a := 20000) (k := 30) (b := 40) x0 x1 (ix2 r q) :=
  Cert.Gcn.matmul_zero_apply dot_S20000x30_S30x40_S20000x40_1_0_0_1_n_n rfl rfl lhs0 lhs1 rhs0 rhs1 _ _ r q

/-- The block indices of the windows at a point: the row tile moves with the point, every other operand stays whole. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Row `r` of tile `t` is row `20000·t + r` of the array. -/
def rowOf (t : Fin cfg0.N) (r : Fin 20000) : Fin 100000 :=
  ⟨t.val * 20000 + r.val, by have := t.isLt; have h : cfg0.N = 5 := N_0; have := r.isLt; omega⟩

theorem iblk_0_apply (c : Dev nD) (t : Fin cfg0.N) (r : Fin 20000) (q : Fin 30) :
    iblk0 V c 0 t (ix2 r q) = V c main_arg0 (ix2 (rowOf t r) q) := by
  obtain ⟨e0, e1, -, -, -, -⟩ := idx_facts t
  show V c main_arg0 (((cfg0.win 0).blk t).view.emb (ix2 r q)) = V c main_arg0 (ix2 (rowOf t r) q)
  refine congrArg _ (funext fun a => Fin.ext ?_)
  match a with
  | ⟨0, _⟩ => show win0_0.index t (0 : Fin 2) * 20000 + 1 * r.val = t.val * 20000 + r.val; rw [e0]; omega
  | ⟨1, _⟩ => show win0_0.index t (1 : Fin 2) * 30 + 1 * q.val = q.val; rw [e1]; omega

theorem iblk_1_eq (c : Dev nD) (t : Fin cfg0.N) : iblk0 V c 1 t = V c main_arg3 := by
  obtain ⟨-, -, e0, e1, -, -⟩ := idx_facts t
  funext y
  show V c main_arg3 (((cfg0.win 1).blk t).view.emb y) = V c main_arg3 y
  refine congrArg _ (funext fun a => Fin.ext ?_)
  match a with
  | ⟨0, _⟩ => show win0_1.index t (0 : Fin 2) * 30 + 1 * (y 0).val = (y 0).val; rw [e0]; omega
  | ⟨1, _⟩ => show win0_1.index t (1 : Fin 2) * 40 + 1 * (y 1).val = (y 1).val; rw [e1]; omega

theorem out_emb (t : Fin cfg0.N) (r : Fin 20000) (q : Fin 40) :
    ((cfg0.win 2).blk t).view.emb (ix2 r q) = ix2 (rowOf t r) q := by
  obtain ⟨-, -, -, -, e0, e1⟩ := idx_facts t
  refine funext fun a => Fin.ext ?_
  match a with
  | ⟨0, _⟩ => show win0_2.index t (0 : Fin 2) * 20000 + 1 * r.val = t.val * 20000 + r.val; rw [e0]; omega
  | ⟨1, _⟩ => show win0_2.index t (1 : Fin 2) * 40 + 1 * q.val = q.val; rw [e1]; omega

/-- What point `t` writes back is tile `t` of the stage of the whole arrays. -/
theorem flushed_eq (c : Dev nD) (t : Fin cfg0.N) :
    (dat0 V c).flushed 2 t = ((cfg0.win 2).blk t).view.read (Elt Ideal) (mm (a := 100000) (k := 30) (b := 40) (V c main_arg0) (V c main_arg3)) := by
  show (cfg0.win 2).cut (grid0.coords t) ((dat0 V c).after 2 t) = _
  rw [after0_2]
  unfold out0_2
  rw [View.canon_unit_zero hz]
  simp only [View.ld_unit_zero (S := S20000x30) hz, View.ld_unit_zero (S := S30x40) hz]
  funext y
  obtain ⟨r, q, rfl⟩ : ∃ (r : Fin 20000) (q : Fin 40), y = ix2 r q := ⟨y 0, y 1, eq_ix2 y⟩
  show k0_pay1 (iblk0 V c 0 t) (iblk0 V c 1 t) (ix2 r q) = (mm (a := 100000) (k := 30) (b := 40) (V c main_arg0) (V c main_arg3)) (((cfg0.win 2).blk t).view.emb (ix2 r q))
  rw [out_emb t r q, iblk_1_eq V c t]
  refine (pay_apply _ _ r q).trans ?_
  exact mm_rows (rowOf t) _ _ _ (fun r' j => iblk_0_apply V c t r' j) r q

theorem mem_blk (t : Fin cfg0.N) (i : S100000x40.Idx) :
    i ∈ ((cfg0.win 2).blk t).view.set ↔ ∀ a : Fin 2, win0_2.index t a * S20000x40.size a ≤ (i a).val ∧ (i a).val < win0_2.index t a * S20000x40.size a + S20000x40.size a := by
  show i ∈ ((View.whole main_v37).slice (win0_2.rect t)).set ↔ _
  rw [View.set_slice_whole, Rect.mem_set_unit]
  exact Iff.rfl

/-- The five tiles cover the array: row `p` is in tile `p / 20000`. -/
theorem cover (i : S100000x40.Idx) : ∃ t : Fin cfg0.N, (cfg0.win 2).flush t = true ∧ i ∈ ((cfg0.win 2).blk t).view.set := by
  have hi0 : (i 0).val < 100000 := (i 0).isLt
  have hi1 : (i 1).val < 40 := (i 1).isLt
  have hN : cfg0.N = 5 := N_0
  refine ⟨⟨(i 0).val / 20000, by omega⟩, flush0_2 _, ?_⟩
  obtain ⟨-, -, -, -, e0, e1⟩ := idx_facts ⟨(i 0).val / 20000, by omega⟩
  rw [mem_blk]
  intro a
  match a with
  | ⟨0, _⟩ => show win0_2.index _ (0 : Fin 2) * 20000 ≤ (i 0).val ∧ (i 0).val < win0_2.index _ (0 : Fin 2) * 20000 + 20000; rw [e0]; show (i 0).val / 20000 * 20000 ≤ _ ∧ _ < (i 0).val / 20000 * 20000 + 20000; omega
  | ⟨1, _⟩ => show win0_2.index _ (1 : Fin 2) * 40 ≤ (i 1).val ∧ (i 1).val < win0_2.index _ (1 : Fin 2) * 40 + 40; rw [e1]; omega

/-- The stage's output array after the region: the stage of the arrays the region was entered with. -/
theorem final (c : Dev nD) : (dat0 V c).arrAt 2 cfg0.N = mm (a := 100000) (k := 30) (b := 40) (V c main_arg0) (V c main_arg3) :=
  (dat0 V c).arrAt_eq_of_cover 2 _ (fun t _ => flushed_eq V c t) cover

/-- The same, the entry contents named. -/
theorem final_of (c : Dev nD) (A : Cert.LayerLaws.Mat 100000 30) (B : Cert.LayerLaws.Mat 30 40) (hA : V c main_arg0 = A) (hB : V c main_arg3 = B) :
    (dat0 V c).arrAt 2 cfg0.N = mm A B := by
  subst hA hB
  exact final V c

end Cert.KernelIdeal.Flow0

end
-- ==== Proof.Region1.lean ====
/-
  A middle dense stage: every row of the aggregated features gets the bias row added and is clamped below at zero, and
  the result is multiplied by the layer's weight matrix (both factors rounded to a narrower format on the way in: the
  identity on the extended reals).  The stage runs over five tiles of 20000 rows; tile `t` holds rows
  `20000·t … 20000·t + 19999`, the whole bias row and the whole weight matrix, so what it writes back is tile `t` of the
  stage of the whole arrays, and the five tiles cover the array.
-/
import proofs.«172641_j618475290672_1_alg».proof.Proof.Gen.KernelIdeal.Frame
import proofs.«172641_j618475290672_1_alg».proof.Proof.LibDenseStages

noncomputable section

namespace Cert.KernelIdeal.Flow1

open Cert.KernelIdeal Cert.KernelIdeal.Gen Idealize.ShloMosaic Idealize.ShloMosaic.TcCoe Idealize.ShloMosaic.ValueIdx
open Idealize.SL.Sem Cert.Gcn
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The product record's operand indices: the left operand at (row, inner), the right at (inner, column). -/
theorem lhs0 (i) (q : dot_S20000x40_S40x40_S20000x40_1_0_0_1_n_n.contr.Idx) : (dot_S20000x40_S40x40_S20000x40_1_0_0_1_n_n.lhsIdx i q 0).val = (i 0).val := by
  unfold DotDims.lhsIdx
  rw [dif_neg (show ¬(0 : Fin S20000x40.rank) ∈ dot_S20000x40_S40x40_S20000x40_1_0_0_1_n_n.lhsBatch by decide), dif_pos (show (0 : Fin S20000x40.rank) ∈ dot_S20000x40_S40x40_S20000x40_1_0_0_1_n_n.lhsNonContracting by decide)]
  rfl
theorem lhs1 (i) (q : dot_S20000x40_S40x40_S20000x40_1_0_0_1_n_n.contr.Idx) : (dot_S20000x40_S40x40_S20000x40_1_0_0_1_n_n.lhsIdx i q 1).val = (q ⟨0, by decide⟩).val :=
  dot_S20000x40_S40x40_S20000x40_1_0_0_1_n_n.lhsIdx_val_of_single rfl i q
theorem rhs0 (i) (q : dot_S20000x40_S40x40_S20000x40_1_0_0_1_n_n.contr.Idx) : (dot_S20000x40_S40x40_S20000x40_1_0_0_1_n_n.rhsIdx i q 0).val = (q ⟨0, by decide⟩).val :=
  dot_S20000x40_S40x40_S20000x40_1_0_0_1_n_n.rhsIdx_val_of_single rfl i q
theorem rhs1 (i) (q : dot_S20000x40_S40x40_S20000x40_1_0_0_1_n_n.contr.Idx) : (dot_S20000x40_S40x40_S20000x40_1_0_0_1_n_n.rhsIdx i q 1).val = (i 1).val := by
  unfold DotDims.rhsIdx
  rw [dif_neg (show ¬(1 : Fin S40x40.rank) ∈ dot_S20000x40_S40x40_S20000x40_1_0_0_1_n_n.rhsBatch by decide), dif_pos (show (1 : Fin S40x40.rank) ∈ dot_S20000x40_S40x40_S20000x40_1_0_0_1_n_n.rhsNonContracting by decide)]
  rfl

/-- The bias row added to a tile's rows and the positive part, at an entry. -/
theorem body_biasRelu (x0 : Vec Ideal S20000x40 .f32) (x1 : Vec Ideal S1x40 .f32) (r : Fin 20000) (j : Fin 40) :
    maximumf (φ := .f32) (addf (φ := .f32) (shapeCast S20000x40 x0 shapeCasts_S20000x40_S20000x40) (broadcastTo S20000x40 (shapeCast S1x40 x1 shapeCasts_S1x40_S1x40) broadcasts_S1x40_S20000x40))
        (broadcast S20000x40 (Scalar.ofBits (F := Ideal) .f32 0x00000000#32)) (ix2 r j)
      = biasRelu (a := 20000) (b := 40) x0 x1 (ix2 r j) := by
  show max (shapeCast S20000x40 x0 _ (ix2 r j) + broadcastTo S20000x40 (shapeCast S1x40 x1 _) _ (ix2 r j)) (Ideal.ofBits .f32 0x00000000#32)
    = max (x0 (ix2 r j) + x1 (ix2 (0 : Fin 1) j)) 0
  rw [shapeCast_self, shapeCast_self, Ideal.ofBits_zero_f32, broadcastTo_1b_ab_apply x1 _ r j]

/-- The body's arithmetic at an entry of the tile: the clamped biased rows times the weights. -/
theorem pay_apply (x0 : Vec Ideal S20000x40 .f32) (x1 : Vec Ideal S1x40 .f32) (x2 : Vec Ideal S40x40 .f32) (r : Fin 20000) (q : Fin 40) :
    k1_pay1 x0 x1 x2 (ix2 r q) = mm (a := 20000) (k := 40) (b := 40) (biasRelu (a := 20000) (b := 40) x0 x1) x2 (ix2 r q) := by
  refine (Cert.Gcn.matmul_zero_apply dot_S20000x40_S40x40_S20000x40_1_0_0_1_n_n rfl rfl lhs0 lhs1 rhs0 rhs1 _ _ r q).trans ?_
  rw [mm_apply]
  exact Finset.sum_congr rfl fun j _ => congrArg (· * x2 (ix2 j q)) (body_biasRelu x0 x1 r j)

/-- The block indices of the windows at a point: the row tile moves with the point, every other operand stays whole. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- Row `r` of tile `t` is row `20000·t + r` of the array. -/
def rowOf (t : Fin cfg1.N) (r : Fin 20000) : Fin 100000 :=
  ⟨t.val * 20000 + r.val, by have := t.isLt; have h : cfg1.N = 5 := N_1; have := r.isLt; omega⟩

theorem iblk_0_apply (c : Dev nD) (t : Fin cfg1.N) (r : Fin 20000) (q : Fin 40) :
    iblk1 V c 0 t (ix2 r q) = V c main_v49 (ix2 (rowOf t r) q) := by
  obtain ⟨e0, e1, -, -, -, -, -, -⟩ := idx_facts t
  show V c main_v49 (((cfg1.win 0).blk t).view.emb (ix2 r q)) = V c main_v49 (ix2 (rowOf t r) q)
  refine congrArg _ (funext fun a => Fin.ext ?_)
  match a with
  | ⟨0, _⟩ => show win1_0.index t (0 : Fin 2) * 20000 + 1 * r.val = t.val * 20000 + r.val; rw [e0]; omega
  | ⟨1, _⟩ => show win1_0.index t (1 : Fin 2) * 40 + 1 * q.val = q.val; rw [e1]; omega

theorem iblk_1_eq (c : Dev nD) (t : Fin cfg1.N) : iblk1 V c 1 t = V c main_v33 := by
  obtain ⟨-, -, e0, e1, -, -, -, -⟩ := idx_facts t
  funext y
  show V c main_v33 (((cfg1.win 1).blk t).view.emb y) = V c main_v33 y
  refine congrArg _ (funext fun a => Fin.ext ?_)
  match a with
  | ⟨0, _⟩ => show win1_1.index t (0 : Fin 2) * 1 + 1 * (y 0).val = (y 0).val; rw [e0]; omega
  | ⟨1, _⟩ => show win1_1.index t (1 : Fin 2) * 40 + 1 * (y 1).val = (y 1).val; rw [e1]; omega

theorem iblk_2_eq (c : Dev nD) (t : Fin cfg1.N) : iblk1 V c 2 t = V c main_arg5 := by
  obtain ⟨-, -, -, -, e0, e1, -, -⟩ := idx_facts t
  funext y
  show V c main_arg5 (((cfg1.win 2).blk t).view.emb y) = V c main_arg5 y
  refine congrArg _ (funext fun a => Fin.ext ?_)
  match a with
  | ⟨0, _⟩ => show win1_2.index t (0 : Fin 2) * 40 + 1 * (y 0).val = (y 0).val; rw [e0]; omega
  | ⟨1, _⟩ => show win1_2.index t (1 : Fin 2) * 40 + 1 * (y 1).val = (y 1).val; rw [e1]; omega

theorem out_emb (t : Fin cfg1.N) (r : Fin 20000) (q : Fin 40) :
    ((cfg1.win 3).blk t).view.emb (ix2 r q) = ix2 (rowOf t r) q := by
  obtain ⟨-, -, -, -, -, -, e0, e1⟩ := idx_facts t
  refine funext fun a => Fin.ext ?_
  match a with
  | ⟨0, _⟩ => show win1_3.index t (0 : Fin 2) * 20000 + 1 * r.val = t.val * 20000 + r.val; rw [e0]; omega
  | ⟨1, _⟩ => show win1_3.index t (1 : Fin 2) * 40 + 1 * q.val = q.val; rw [e1]; omega

/-- What point `t` writes back is tile `t` of the stage of the whole arrays. -/
theorem flushed_eq (c : Dev nD) (t : Fin cfg1.N) :
    (dat1 V c).flushed 3 t = ((cfg1.win 3).blk t).view.read (Elt Ideal) (mm (a := 100000) (k := 40) (b := 40) (biasRelu (a := 100000) (b := 40) (V c main_v49) (V c main_v33)) (V c main_arg5)) := by
  show (cfg1.win 3).cut (grid1.coords t) ((dat1 V c).after 3 t) = _
  rw [after1_3]
  unfold out1_3
  rw [View.canon_unit_zero hz]
  simp only [View.ld_unit_zero (S := S20000x40) hz, View.ld_unit_zero (S := S1x40) hz, View.ld_unit_zero (S := S40x40) hz]
  funext y
  obtain ⟨r, q, rfl⟩ : ∃ (r : Fin 20000) (q : Fin 40), y = ix2 r q := ⟨y 0, y 1, eq_ix2 y⟩
  show k1_pay1 (iblk1 V c 0 t) (iblk1 V c 1 t) (iblk1 V c 2 t) (ix2 r q) = (mm (a := 100000) (k := 40) (b := 40) (biasRelu (a := 100000) (b := 40) (V c main_v49) (V c main_v33)) (V c main_arg5)) (((cfg1.win 3).blk t).view.emb (ix2 r q))
  rw [out_emb t r q, iblk_1_eq V c t, iblk_2_eq V c t]
  refine (pay_apply _ _ _ r q).trans ?_
  exact mm_rows (rowOf t) _ _ _ (fun r' j => biasRelu_rows (rowOf t) _ _ _ (fun r'' q' => iblk_0_apply V c t r'' q') r' j) r q

theorem mem_blk (t : Fin cfg1.N) (i : S100000x40.Idx) :
    i ∈ ((cfg1.win 3).blk t).view.set ↔ ∀ a : Fin 2, win1_3.index t a * S20000x40.size a ≤ (i a).val ∧ (i a).val < win1_3.index t a * S20000x40.size a + S20000x40.size a := by
  show i ∈ ((View.whole main_v50).slice (win1_3.rect t)).set ↔ _
  rw [View.set_slice_whole, Rect.mem_set_unit]
  exact Iff.rfl

/-- The five tiles cover the array: row `p` is in tile `p / 20000`. -/
theorem cover (i : S100000x40.Idx) : ∃ t : Fin cfg1.N, (cfg1.win 3).flush t = true ∧ i ∈ ((cfg1.win 3).blk t).view.set := by
  have hi0 : (i 0).val < 100000 := (i 0).isLt
  have hi1 : (i 1).val < 40 := (i 1).isLt
  have hN : cfg1.N = 5 := N_1
  refine ⟨⟨(i 0).val / 20000, by omega⟩, flush1_3 _, ?_⟩
  obtain ⟨-, -, -, -, -, -, e0, e1⟩ := idx_facts ⟨(i 0).val / 20000, by omega⟩
  rw [mem_blk]
  intro a
  match a with
  | ⟨0, _⟩ => show win1_3.index _ (0 : Fin 2) * 20000 ≤ (i 0).val ∧ (i 0).val < win1_3.index _ (0 : Fin 2) * 20000 + 20000; rw [e0]; show (i 0).val / 20000 * 20000 ≤ _ ∧ _ < (i 0).val / 20000 * 20000 + 20000; omega
  | ⟨1, _⟩ => show win1_3.index _ (1 : Fin 2) * 40 ≤ (i 1).val ∧ (i 1).val < win1_3.index _ (1 : Fin 2) * 40 + 40; rw [e1]; omega

/-- The stage's output array after the region: the stage of the arrays the region was entered with. -/
theorem final (c : Dev nD) : (dat1 V c).arrAt 3 cfg1.N = mm (a := 100000) (k := 40) (b := 40) (biasRelu (a := 100000) (b := 40) (V c main_v49) (V c main_v33)) (V c main_arg5) :=
  (dat1 V c).arrAt_eq_of_cover 3 _ (fun t _ => flushed_eq V c t) cover

/-- The same, the entry contents named. -/
theorem final_of (c : Dev nD) (A : Cert.LayerLaws.Mat 100000 40) (B : Cert.LayerLaws.Mat 1 40) (W : Cert.LayerLaws.Mat 40 40) (hA : V c main_v49 = A) (hB : V c main_v33 = B) (hW : V c main_arg5 = W) :
    (dat1 V c).arrAt 3 cfg1.N = mm (biasRelu A B) W := by
  subst hA hB hW
  exact final V c

end Cert.KernelIdeal.Flow1

end
-- ==== Proof.Region2.lean ====
/-
  A middle dense stage: every row of the aggregated features gets the bias row added and is clamped below at zero, and
  the result is multiplied by the layer's weight matrix (both factors rounded to a narrower format on the way in: the
  identity on the extended reals).  The stage runs over five tiles of 20000 rows; tile `t` holds rows
  `20000·t … 20000·t + 19999`, the whole bias row and the whole weight matrix, so what it writes back is tile `t` of the
  stage of the whole arrays, and the five tiles cover the array.
-/
import proofs.«172641_j618475290672_1_alg».proof.Proof.Gen.KernelIdeal.Frame
import proofs.«172641_j618475290672_1_alg».proof.Proof.LibDenseStages

noncomputable section

namespace Cert.KernelIdeal.Flow2

open Cert.KernelIdeal Cert.KernelIdeal.Gen Idealize.ShloMosaic Idealize.ShloMosaic.TcCoe Idealize.ShloMosaic.ValueIdx
open Idealize.SL.Sem Cert.Gcn
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The product record's operand indices: the left operand at (row, inner), the right at (inner, column). -/
theorem lhs0 (i) (q : dot_S20000x40_S40x40_S20000x40_1_0_0_1_n_n.contr.Idx) : (dot_S20000x40_S40x40_S20000x40_1_0_0_1_n_n.lhsIdx i q 0).val = (i 0).val := by
  unfold DotDims.lhsIdx
  rw [dif_neg (show ¬(0 : Fin S20000x40.rank) ∈ dot_S20000x40_S40x40_S20000x40_1_0_0_1_n_n.lhsBatch by decide), dif_pos (show (0 : Fin S20000x40.rank) ∈ dot_S20000x40_S40x40_S20000x40_1_0_0_1_n_n.lhsNonContracting by decide)]
  rfl
theorem lhs1 (i) (q : dot_S20000x40_S40x40_S20000x40_1_0_0_1_n_n.contr.Idx) : (dot_S20000x40_S40x40_S20000x40_1_0_0_1_n_n.lhsIdx i q 1).val = (q ⟨0, by decide⟩).val :=
  dot_S20000x40_S40x40_S20000x40_1_0_0_1_n_n.lhsIdx_val_of_single rfl i q
theorem rhs0 (i) (q : dot_S20000x40_S40x40_S20000x40_1_0_0_1_n_n.contr.Idx) : (dot_S20000x40_S40x40_S20000x40_1_0_0_1_n_n.rhsIdx i q 0).val = (q ⟨0, by decide⟩).val :=
  dot_S20000x40_S40x40_S20000x40_1_0_0_1_n_n.rhsIdx_val_of_single rfl i q
theorem rhs1 (i) (q : dot_S20000x40_S40x40_S20000x40_1_0_0_1_n_n.contr.Idx) : (dot_S20000x40_S40x40_S20000x40_1_0_0_1_n_n.rhsIdx i q 1).val = (i 1).val := by
  unfold DotDims.rhsIdx
  rw [dif_neg (show ¬(1 : Fin S40x40.rank) ∈ dot_S20000x40_S40x40_S20000x40_1_0_0_1_n_n.rhsBatch by decide), dif_pos (show (1 : Fin S40x40.rank) ∈ dot_S20000x40_S40x40_S20000x40_1_0_0_1_n_n.rhsNonContracting by decide)]
  rfl

/-- The bias row added to a tile's rows and the positive part, at an entry. -/
theorem body_biasRelu (x0 : Vec Ideal S20000x40 .f32) (x1 : Vec Ideal S1x40 .f32) (r : Fin 20000) (j : Fin 40) :
    maximumf (φ := .f32) (addf (φ := .f32) (shapeCast S20000x40 x0 shapeCasts_S20000x40_S20000x40) (broadcastTo S20000x40 (shapeCast S1x40 x1 shapeCasts_S1x40_S1x40) broadcasts_S1x40_S20000x40))
        (broadcast S20000x40 (Scalar.ofBits (F := Ideal) .f32 0x00000000#32)) (ix2 r j)
      = biasRelu (a := 20000) (b := 40) x0 x1 (ix2 r j) := by
  show max (shapeCast S20000x40 x0 _ (ix2 r j) + broadcastTo S20000x40 (shapeCast S1x40 x1 _) _ (ix2 r j)) (Ideal.ofBits .f32 0x00000000#32)
    = max (x0 (ix2 r j) + x1 (ix2 (0 : Fin 1) j)) 0
  rw [shapeCast_self, shapeCast_self, Ideal.ofBits_zero_f32, broadcastTo_1b_ab_apply x1 _ r j]

/-- The body's arithmetic at an entry of the tile: the clamped biased rows times the weights. -/
theorem pay_apply (x0 : Vec Ideal S20000x40 .f32) (x1 : Vec Ideal S1x40 .f32) (x2 : Vec Ideal S40x40 .f32) (r : Fin 20000) (q : Fin 40) :
    k2_pay1 x0 x1 x2 (ix2 r q) = mm (a := 20000) (k := 40) (b := 40) (biasRelu (a := 20000) (b := 40) x0 x1) x2 (ix2 r q) := by
  refine (Cert.Gcn.matmul_zero_apply dot_S20000x40_S40x40_S20000x40_1_0_0_1_n_n rfl rfl lhs0 lhs1 rhs0 rhs1 _ _ r q).trans ?_
  rw [mm_apply]
  exact Finset.sum_congr rfl fun j _ => congrArg (· * x2 (ix2 j q)) (body_biasRelu x0 x1 r j)

/-- The block indices of the windows at a point: the row tile moves with the point, every other operand stays whole. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- Row `r` of tile `t` is row `20000·t + r` of the array. -/
def rowOf (t : Fin cfg2.N) (r : Fin 20000) : Fin 100000 :=
  ⟨t.val * 20000 + r.val, by have := t.isLt; have h : cfg2.N = 5 := N_2; have := r.isLt; omega⟩

theorem iblk_0_apply (c : Dev nD) (t : Fin cfg2.N) (r : Fin 20000) (q : Fin 40) :
    iblk2 V c 0 t (ix2 r q) = V c main_v62 (ix2 (rowOf t r) q) := by
  obtain ⟨e0, e1, -, -, -, -, -, -⟩ := idx_facts t
  show V c main_v62 (((cfg2.win 0).blk t).view.emb (ix2 r q)) = V c main_v62 (ix2 (rowOf t r) q)
  refine congrArg _ (funext fun a => Fin.ext ?_)
  match a with
  | ⟨0, _⟩ => show win2_0.index t (0 : Fin 2) * 20000 + 1 * r.val = t.val * 20000 + r.val; rw [e0]; omega
  | ⟨1, _⟩ => show win2_0.index t (1 : Fin 2) * 40 + 1 * q.val = q.val; rw [e1]; omega

theorem iblk_1_eq (c : Dev nD) (t : Fin cfg2.N) : iblk2 V c 1 t = V c main_v34 := by
  obtain ⟨-, -, e0, e1, -, -, -, -⟩ := idx_facts t
  funext y
  show V c main_v34 (((cfg2.win 1).blk t).view.emb y) = V c main_v34 y
  refine congrArg _ (funext fun a => Fin.ext ?_)
  match a with
  | ⟨0, _⟩ => show win2_1.index t (0 : Fin 2) * 1 + 1 * (y 0).val = (y 0).val; rw [e0]; omega
  | ⟨1, _⟩ => show win2_1.index t (1 : Fin 2) * 40 + 1 * (y 1).val = (y 1).val; rw [e1]; omega

theorem iblk_2_eq (c : Dev nD) (t : Fin cfg2.N) : iblk2 V c 2 t = V c main_arg7 := by
  obtain ⟨-, -, -, -, e0, e1, -, -⟩ := idx_facts t
  funext y
  show V c main_arg7 (((cfg2.win 2).blk t).view.emb y) = V c main_arg7 y
  refine congrArg _ (funext fun a => Fin.ext ?_)
  match a with
  | ⟨0, _⟩ => show win2_2.index t (0 : Fin 2) * 40 + 1 * (y 0).val = (y 0).val; rw [e0]; omega
  | ⟨1, _⟩ => show win2_2.index t (1 : Fin 2) * 40 + 1 * (y 1).val = (y 1).val; rw [e1]; omega

theorem out_emb (t : Fin cfg2.N) (r : Fin 20000) (q : Fin 40) :
    ((cfg2.win 3).blk t).view.emb (ix2 r q) = ix2 (rowOf t r) q := by
  obtain ⟨-, -, -, -, -, -, e0, e1⟩ := idx_facts t
  refine funext fun a => Fin.ext ?_
  match a with
  | ⟨0, _⟩ => show win2_3.index t (0 : Fin 2) * 20000 + 1 * r.val = t.val * 20000 + r.val; rw [e0]; omega
  | ⟨1, _⟩ => show win2_3.index t (1 : Fin 2) * 40 + 1 * q.val = q.val; rw [e1]; omega

/-- What point `t` writes back is tile `t` of the stage of the whole arrays. -/
theorem flushed_eq (c : Dev nD) (t : Fin cfg2.N) :
    (dat2 V c).flushed 3 t = ((cfg2.win 3).blk t).view.read (Elt Ideal) (mm (a := 100000) (k := 40) (b := 40) (biasRelu (a := 100000) (b := 40) (V c main_v62) (V c main_v34)) (V c main_arg7)) := by
  show (cfg2.win 3).cut (grid2.coords t) ((dat2 V c).after 3 t) = _
  rw [after2_3]
  unfold out2_3
  rw [View.canon_unit_zero hz]
  simp only [View.ld_unit_zero (S := S20000x40) hz, View.ld_unit_zero (S := S1x40) hz, View.ld_unit_zero (S := S40x40) hz]
  funext y
  obtain ⟨r, q, rfl⟩ : ∃ (r : Fin 20000) (q : Fin 40), y = ix2 r q := ⟨y 0, y 1, eq_ix2 y⟩
  show k2_pay1 (iblk2 V c 0 t) (iblk2 V c 1 t) (iblk2 V c 2 t) (ix2 r q) = (mm (a := 100000) (k := 40) (b := 40) (biasRelu (a := 100000) (b := 40) (V c main_v62) (V c main_v34)) (V c main_arg7)) (((cfg2.win 3).blk t).view.emb (ix2 r q))
  rw [out_emb t r q, iblk_1_eq V c t, iblk_2_eq V c t]
  refine (pay_apply _ _ _ r q).trans ?_
  exact mm_rows (rowOf t) _ _ _ (fun r' j => biasRelu_rows (rowOf t) _ _ _ (fun r'' q' => iblk_0_apply V c t r'' q') r' j) r q

theorem mem_blk (t : Fin cfg2.N) (i : S100000x40.Idx) :
    i ∈ ((cfg2.win 3).blk t).view.set ↔ ∀ a : Fin 2, win2_3.index t a * S20000x40.size a ≤ (i a).val ∧ (i a).val < win2_3.index t a * S20000x40.size a + S20000x40.size a := by
  show i ∈ ((View.whole main_v63).slice (win2_3.rect t)).set ↔ _
  rw [View.set_slice_whole, Rect.mem_set_unit]
  exact Iff.rfl

/-- The five tiles cover the array: row `p` is in tile `p / 20000`. -/
theorem cover (i : S100000x40.Idx) : ∃ t : Fin cfg2.N, (cfg2.win 3).flush t = true ∧ i ∈ ((cfg2.win 3).blk t).view.set := by
  have hi0 : (i 0).val < 100000 := (i 0).isLt
  have hi1 : (i 1).val < 40 := (i 1).isLt
  have hN : cfg2.N = 5 := N_2
  refine ⟨⟨(i 0).val / 20000, by omega⟩, flush2_3 _, ?_⟩
  obtain ⟨-, -, -, -, -, -, e0, e1⟩ := idx_facts ⟨(i 0).val / 20000, by omega⟩
  rw [mem_blk]
  intro a
  match a with
  | ⟨0, _⟩ => show win2_3.index _ (0 : Fin 2) * 20000 ≤ (i 0).val ∧ (i 0).val < win2_3.index _ (0 : Fin 2) * 20000 + 20000; rw [e0]; show (i 0).val / 20000 * 20000 ≤ _ ∧ _ < (i 0).val / 20000 * 20000 + 20000; omega
  | ⟨1, _⟩ => show win2_3.index _ (1 : Fin 2) * 40 ≤ (i 1).val ∧ (i 1).val < win2_3.index _ (1 : Fin 2) * 40 + 40; rw [e1]; omega

/-- The stage's output array after the region: the stage of the arrays the region was entered with. -/
theorem final (c : Dev nD) : (dat2 V c).arrAt 3 cfg2.N = mm (a := 100000) (k := 40) (b := 40) (biasRelu (a := 100000) (b := 40) (V c main_v62) (V c main_v34)) (V c main_arg7) :=
  (dat2 V c).arrAt_eq_of_cover 3 _ (fun t _ => flushed_eq V c t) cover

/-- The same, the entry contents named. -/
theorem final_of (c : Dev nD) (A : Cert.LayerLaws.Mat 100000 40) (B : Cert.LayerLaws.Mat 1 40) (W : Cert.LayerLaws.Mat 40 40) (hA : V c main_v62 = A) (hB : V c main_v34 = B) (hW : V c main_arg7 = W) :
    (dat2 V c).arrAt 3 cfg2.N = mm (biasRelu A B) W := by
  subst hA hB hW
  exact final V c

end Cert.KernelIdeal.Flow2

end
-- ==== Proof.Region3.lean ====
/-
  The last dense stage: every row of the aggregated features gets the bias row added and is clamped below at zero.
  The stage runs over five tiles of 20000 rows; tile `t` holds rows `20000·t … 20000·t + 19999` and the whole bias row,
  so what it writes back is tile `t` of the stage of the whole arrays, and the five tiles cover the array.
-/
import proofs.«172641_j618475290672_1_alg».proof.Proof.Gen.KernelIdeal.Frame
import proofs.«172641_j618475290672_1_alg».proof.Proof.LibDenseStages

noncomputable section

namespace Cert.KernelIdeal.Flow3

open Cert.KernelIdeal Cert.KernelIdeal.Gen Idealize.ShloMosaic Idealize.ShloMosaic.TcCoe Idealize.ShloMosaic.ValueIdx
open Idealize.SL.Sem Cert.Gcn
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an entry of the tile. -/
theorem pay_apply (x0 : Vec Ideal S20000x40 .f32) (x1 : Vec Ideal S1x40 .f32) (r : Fin 20000) (q : Fin 40) :
    k3_pay1 x0 x1 (ix2 r q) = biasRelu x0 x1 (ix2 r q) := by
  show max (shapeCast S20000x40 x0 _ (ix2 r q) + broadcastTo S20000x40 (shapeCast S1x40 x1 _) _ (ix2 r q)) (Ideal.ofBits .f32 0x00000000#32)
    = max (x0 (ix2 r q) + x1 (ix2 (0 : Fin 1) q)) 0
  rw [shapeCast_self, shapeCast_self, Ideal.ofBits_zero_f32,
    broadcastTo_1b_ab_apply x1 _ r q]

/-- The block indices of the three windows at a point: the row tile moves with the point, the bias row stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `r` of tile `t` is row `20000·t + r` of the array. -/
def rowOf (t : Fin cfg3.N) (r : Fin 20000) : Fin 100000 :=
  ⟨t.val * 20000 + r.val, by have := t.isLt; have h : cfg3.N = 5 := N_3; have := r.isLt; omega⟩

theorem iblk_0_apply (c : Dev nD) (t : Fin cfg3.N) (r : Fin 20000) (q : Fin 40) :
    iblk3 V c 0 t (ix2 r q) = V c main_v75 (ix2 (rowOf t r) q) := by
  obtain ⟨e0, e1, -⟩ := idx_facts t
  show V c main_v75 (((cfg3.win 0).blk t).view.emb (ix2 r q)) = V c main_v75 (ix2 (rowOf t r) q)
  refine congrArg _ (funext fun a => Fin.ext ?_)
  match a with
  | ⟨0, _⟩ => show win3_0.index t (0 : Fin 2) * 20000 + 1 * r.val = t.val * 20000 + r.val; rw [e0]; omega
  | ⟨1, _⟩ => show win3_0.index t (1 : Fin 2) * 40 + 1 * q.val = q.val; rw [e1]; omega

theorem iblk_1_eq (c : Dev nD) (t : Fin cfg3.N) : iblk3 V c 1 t = V c main_v35 := by
  obtain ⟨-, -, e0, e1, -⟩ := idx_facts t
  funext y
  show V c main_v35 (((cfg3.win 1).blk t).view.emb y) = V c main_v35 y
  refine congrArg _ (funext fun a => Fin.ext ?_)
  match a with
  | ⟨0, _⟩ => show win3_1.index t (0 : Fin 2) * 1 + 1 * (y 0).val = (y 0).val; rw [e0]; omega
  | ⟨1, _⟩ => show win3_1.index t (1 : Fin 2) * 40 + 1 * (y 1).val = (y 1).val; rw [e1]; omega

theorem out_emb (t : Fin cfg3.N) (r : Fin 20000) (q : Fin 40) :
    ((cfg3.win 2).blk t).view.emb (ix2 r q) = ix2 (rowOf t r) q := by
  obtain ⟨-, -, -, -, e0, e1⟩ := idx_facts t
  refine funext fun a => Fin.ext ?_
  match a with
  | ⟨0, _⟩ => show win3_2.index t (0 : Fin 2) * 20000 + 1 * r.val = t.val * 20000 + r.val; rw [e0]; omega
  | ⟨1, _⟩ => show win3_2.index t (1 : Fin 2) * 40 + 1 * q.val = q.val; rw [e1]; omega

/-- What point `t` writes back is tile `t` of the stage of the whole arrays. -/
theorem flushed_eq (c : Dev nD) (t : Fin cfg3.N) :
    (dat3 V c).flushed 2 t = ((cfg3.win 2).blk t).view.read (Elt Ideal) (biasRelu (V c main_v75) (V c main_v35)) := by
  show (cfg3.win 2).cut (grid3.coords t) ((dat3 V c).after 2 t) = _
  rw [after3_2]
  unfold out3_2
  rw [View.canon_unit_zero hz]
  simp only [View.ld_unit_zero (S := S20000x40) hz, View.ld_unit_zero (S := S1x40) hz]
  funext y
  obtain ⟨r, q, rfl⟩ : ∃ (r : Fin 20000) (q : Fin 40), y = ix2 r q := ⟨y 0, y 1, eq_ix2 y⟩
  show k3_pay1 (iblk3 V c 0 t) (iblk3 V c 1 t) (ix2 r q) = biasRelu (V c main_v75) (V c main_v35) (((cfg3.win 2).blk t).view.emb (ix2 r q))
  rw [out_emb t r q, iblk_1_eq V c t]
  refine (pay_apply _ _ r q).trans ?_
  exact biasRelu_rows (rowOf t) _ _ _ (fun r' q' => iblk_0_apply V c t r' q') r q

theorem mem_blk (t : Fin cfg3.N) (i : S100000x40.Idx) :
    i ∈ ((cfg3.win 2).blk t).view.set ↔ ∀ a : Fin 2, win3_2.index t a * S20000x40.size a ≤ (i a).val ∧ (i a).val < win3_2.index t a * S20000x40.size a + S20000x40.size a := by
  show i ∈ ((View.whole main_v76).slice (win3_2.rect t)).set ↔ _
  rw [View.set_slice_whole, Rect.mem_set_unit]
  exact Iff.rfl

theorem cover (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  have hN : cfg3.N = 5 := N_3
  refine ⟨⟨(i 0).val / 20000, by omega⟩, flush3_2 _, ?_⟩
  obtain ⟨-, -, -, -, e0, e1⟩ := idx_facts ⟨(i 0).val / 20000, by omega⟩
  rw [mem_blk]
  intro a
  match a with
  | ⟨0, _⟩ => show win3_2.index _ (0 : Fin 2) * 20000 ≤ (i 0).val ∧ (i 0).val < win3_2.index _ (0 : Fin 2) * 20000 + 20000; rw [e0]; show (i 0).val / 20000 * 20000 ≤ _ ∧ _ < (i 0).val / 20000 * 20000 + 20000; omega
  | ⟨1, _⟩ => show win3_2.index _ (1 : Fin 2) * 40 ≤ (i 1).val ∧ (i 1).val < win3_2.index _ (1 : Fin 2) * 40 + 40; rw [e1]; omega

/-- The stage's output array after the region: the stage of the arrays the region was entered with. -/
theorem final (c : Dev nD) : (dat3 V c).arrAt 2 cfg3.N = biasRelu (V c main_v75) (V c main_v35) :=
  (dat3 V c).arrAt_eq_of_cover 2 _ (fun t _ => flushed_eq V c t) (cover)

/-- The same, the entry contents named. -/
theorem final_of (c : Dev nD) (A : Cert.LayerLaws.Mat 100000 40) (B : Cert.LayerLaws.Mat 1 40)
    (hA : V c main_v75 = A) (hB : V c main_v35 = B) :
    (dat3 V c).arrAt 2 cfg3.N = biasRelu A B := by
  subst hA hB
  exact final V c

end Cert.KernelIdeal.Flow3

end
-- ==== Proof.Region4.lean ====
/-
  The head: the pooled features times the head's weight matrix (both rounded to a narrower format on the way in: the
  identity on the extended reals), plus the bias row on every row.  The stage is one point whose blocks are the whole
  arrays, so what it writes back is the stage of the whole arrays.
-/
import proofs.«172641_j618475290672_1_alg».proof.Proof.Gen.KernelIdeal.Frame
import proofs.«172641_j618475290672_1_alg».proof.Proof.LibDenseStages

noncomputable section

namespace Cert.KernelIdeal.Flow4

open Cert.KernelIdeal Cert.KernelIdeal.Gen Idealize.ShloMosaic Idealize.ShloMosaic.TcCoe Idealize.ShloMosaic.ValueIdx
open Idealize.SL.Sem Cert.Gcn
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The product record's operand indices: the left operand at (row, inner), the right at (inner, column). -/
theorem lhs0 (i) (q : dot_S1024x40_S40x2_S1024x2_1_0_0_1_n_n.contr.Idx) : (dot_S1024x40_S40x2_S1024x2_1_0_0_1_n_n.lhsIdx i q 0).val = (i 0).val := by
  unfold DotDims.lhsIdx
  rw [dif_neg (show ¬(0 : Fin S1024x40.rank) ∈ dot_S1024x40_S40x2_S1024x2_1_0_0_1_n_n.lhsBatch by decide), dif_pos (show (0 : Fin S1024x40.rank) ∈ dot_S1024x40_S40x2_S1024x2_1_0_0_1_n_n.lhsNonContracting by decide)]
  rfl
theorem lhs1 (i) (q : dot_S1024x40_S40x2_S1024x2_1_0_0_1_n_n.contr.Idx) : (dot_S1024x40_S40x2_S1024x2_1_0_0_1_n_n.lhsIdx i q 1).val = (q ⟨0, by decide⟩).val :=
  dot_S1024x40_S40x2_S1024x2_1_0_0_1_n_n.lhsIdx_val_of_single rfl i q
theorem rhs0 (i) (q : dot_S1024x40_S40x2_S1024x2_1_0_0_1_n_n.contr.Idx) : (dot_S1024x40_S40x2_S1024x2_1_0_0_1_n_n.rhsIdx i q 0).val = (q ⟨0, by decide⟩).val :=
  dot_S1024x40_S40x2_S1024x2_1_0_0_1_n_n.rhsIdx_val_of_single rfl i q
theorem rhs1 (i) (q : dot_S1024x40_S40x2_S1024x2_1_0_0_1_n_n.contr.Idx) : (dot_S1024x40_S40x2_S1024x2_1_0_0_1_n_n.rhsIdx i q 1).val = (i 1).val := by
  unfold DotDims.rhsIdx
  rw [dif_neg (show ¬(1 : Fin S40x2.rank) ∈ dot_S1024x40_S40x2_S1024x2_1_0_0_1_n_n.rhsBatch by decide), dif_pos (show (1 : Fin S40x2.rank) ∈ dot_S1024x40_S40x2_S1024x2_1_0_0_1_n_n.rhsNonContracting by decide)]
  rfl

/-- The body's arithmetic at an entry: the product into a zero accumulator, plus the bias row. -/
theorem pay_apply (x0 : Vec Ideal S1024x40 .f32) (x1 : Vec Ideal S40x2 .f32) (x2 : Vec Ideal S1x2 .f32) (p : Fin 1024) (q : Fin 2) :
    k4_pay1 x0 x1 x2 (ix2 p q) = addRow (a := 1024) (b := 2) (mm (a := 1024) (k := 40) (b := 2) x0 x1) x2 (ix2 p q) := by
  have h1 : shapeCast S1024x40 x0 shapeCasts_S1024x40_S1024x40 = x0 := shapeCast_self _ _
  have h2 : shapeCast S1x2 x2 shapeCasts_S1x2_S1x2 = x2 := shapeCast_self _ _
  unfold k4_pay1
  simp only [h1, h2]
  refine (addf_apply _ _ (ix2 p q)).trans ?_
  refine congrArg₂ (· + ·) ?_ ?_
  · exact Cert.Gcn.matmul_zero_apply dot_S1024x40_S40x2_S1024x2_1_0_0_1_n_n rfl rfl lhs0 lhs1 rhs0 rhs1 _ _ p q
  · exact broadcastTo_1b_ab_apply x2 _ p q

/-- Every window's block at the one point is at block index zero on both axes. -/
theorem idx_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

theorem iblk_0_eq (c : Dev nD) (t : Fin cfg4.N) : iblk4 V c 0 t = V c main_v88 := by
  obtain ⟨e0, e1, -, -, -, -, -, -⟩ := idx_facts t
  funext y
  show V c main_v88 (((cfg4.win 0).blk t).view.emb y) = V c main_v88 y
  refine congrArg _ (funext fun a => Fin.ext ?_)
  match a with
  | ⟨0, _⟩ => show win4_0.index t (0 : Fin 2) * 1024 + 1 * (y 0).val = (y 0).val; rw [e0]; omega
  | ⟨1, _⟩ => show win4_0.index t (1 : Fin 2) * 40 + 1 * (y 1).val = (y 1).val; rw [e1]; omega

theorem iblk_1_eq (c : Dev nD) (t : Fin cfg4.N) : iblk4 V c 1 t = V c main_arg9 := by
  obtain ⟨-, -, e0, e1, -, -, -, -⟩ := idx_facts t
  funext y
  show V c main_arg9 (((cfg4.win 1).blk t).view.emb y) = V c main_arg9 y
  refine congrArg _ (funext fun a => Fin.ext ?_)
  match a with
  | ⟨0, _⟩ => show win4_1.index t (0 : Fin 2) * 40 + 1 * (y 0).val = (y 0).val; rw [e0]; omega
  | ⟨1, _⟩ => show win4_1.index t (1 : Fin 2) * 2 + 1 * (y 1).val = (y 1).val; rw [e1]; omega

theorem iblk_2_eq (c : Dev nD) (t : Fin cfg4.N) : iblk4 V c 2 t = V c main_v36 := by
  obtain ⟨-, -, -, -, e0, e1, -, -⟩ := idx_facts t
  funext y
  show V c main_v36 (((cfg4.win 2).blk t).view.emb y) = V c main_v36 y
  refine congrArg _ (funext fun a => Fin.ext ?_)
  match a with
  | ⟨0, _⟩ => show win4_2.index t (0 : Fin 2) * 1 + 1 * (y 0).val = (y 0).val; rw [e0]; omega
  | ⟨1, _⟩ => show win4_2.index t (1 : Fin 2) * 2 + 1 * (y 1).val = (y 1).val; rw [e1]; omega

theorem out_emb (t : Fin cfg4.N) (p : Fin 1024) (q : Fin 2) :
    ((cfg4.win 3).blk t).view.emb (ix2 p q) = ix2 p q := by
  obtain ⟨-, -, -, -, -, -, e0, e1⟩ := idx_facts t
  refine funext fun a => Fin.ext ?_
  match a with
  | ⟨0, _⟩ => show win4_3.index t (0 : Fin 2) * 1024 + 1 * p.val = p.val; rw [e0]; omega
  | ⟨1, _⟩ => show win4_3.index t (1 : Fin 2) * 2 + 1 * q.val = q.val; rw [e1]; omega

/-- What the point writes back is the stage of the whole arrays. -/
theorem flushed_eq (c : Dev nD) (t : Fin cfg4.N) :
    (dat4 V c).flushed 3 t = ((cfg4.win 3).blk t).view.read (Elt Ideal)
      (addRow (a := 1024) (b := 2) (mm (a := 1024) (k := 40) (b := 2) (V c main_v88) (V c main_arg9)) (V c main_v36)) := by
  show (cfg4.win 3).cut (grid4.coords t) ((dat4 V c).after 3 t) = _
  rw [after4_3]
  unfold out4_3
  rw [View.canon_unit_zero hz]
  simp only [View.ld_unit_zero (S := S1024x40) hz, View.ld_unit_zero (S := S40x2) hz, View.ld_unit_zero (S := S1x2) hz]
  funext y
  obtain ⟨p, q, rfl⟩ : ∃ (p : Fin 1024) (q : Fin 2), y = ix2 p q := ⟨y 0, y 1, eq_ix2 y⟩
  show k4_pay1 (iblk4 V c 0 t) (iblk4 V c 1 t) (iblk4 V c 2 t) (ix2 p q)
    = (addRow (a := 1024) (b := 2) (mm (a := 1024) (k := 40) (b := 2) (V c main_v88) (V c main_arg9)) (V c main_v36)) (((cfg4.win 3).blk t).view.emb (ix2 p q))
  rw [out_emb t p q, iblk_0_eq V c t, iblk_1_eq V c t, iblk_2_eq V c t]
  exact pay_apply _ _ _ p q

theorem mem_blk (t : Fin cfg4.N) (i : S1024x2.Idx) :
    i ∈ ((cfg4.win 3).blk t).view.set ↔ ∀ a : Fin 2, win4_3.index t a * S1024x2.size a ≤ (i a).val ∧ (i a).val < win4_3.index t a * S1024x2.size a + S1024x2.size a := by
  show i ∈ ((View.whole main_v89).slice (win4_3.rect t)).set ↔ _
  rw [View.set_slice_whole, Rect.mem_set_unit]
  exact Iff.rfl

/-- The one block is the whole array. -/
theorem cover (i : S1024x2.Idx) : ∃ t : Fin cfg4.N, (cfg4.win 3).flush t = true ∧ i ∈ ((cfg4.win 3).blk t).view.set := by
  have hi0 : (i 0).val < 1024 := (i 0).isLt
  have hi1 : (i 1).val < 2 := (i 1).isLt
  have hN : cfg4.N = 1 := N_4
  refine ⟨⟨0, by omega⟩, flush4_3 _, ?_⟩
  obtain ⟨-, -, -, -, -, -, e0, e1⟩ := idx_facts ⟨0, by omega⟩
  rw [mem_blk]
  intro a
  match a with
  | ⟨0, _⟩ => show win4_3.index _ (0 : Fin 2) * 1024 ≤ (i 0).val ∧ (i 0).val < win4_3.index _ (0 : Fin 2) * 1024 + 1024; rw [e0]; omega
  | ⟨1, _⟩ => show win4_3.index _ (1 : Fin 2) * 2 ≤ (i 1).val ∧ (i 1).val < win4_3.index _ (1 : Fin 2) * 2 + 2; rw [e1]; omega

/-- The head's output array after the region: the stage of the arrays the region was entered with. -/
theorem final (c : Dev nD) : (dat4 V c).arrAt 3 cfg4.N
    = addRow (a := 1024) (b := 2) (mm (a := 1024) (k := 40) (b := 2) (V c main_v88) (V c main_arg9)) (V c main_v36) :=
  (dat4 V c).arrAt_eq_of_cover 3 _ (fun t _ => flushed_eq V c t) cover

/-- The same, the entry contents named. -/
theorem final_of (c : Dev nD) (A : Cert.LayerLaws.Mat 1024 40) (W : Cert.LayerLaws.Mat 40 2) (B : Cert.LayerLaws.Mat 1 2)
    (hA : V c main_v88 = A) (hW : V c main_arg9 = W) (hB : V c main_v36 = B) :
    (dat4 V c).arrAt 3 cfg4.N = addRow (mm A W) B := by
  subst hA hW hB
  exact final V c

end Cert.KernelIdeal.Flow4

end
-- ==== Proof.RefForms.lean ====
/-
  The reference's dense stages in the vocabulary of the laws: each host product is the matrix product, each
  "add the bias vector to every row, then take the positive part" is the clamped biased rows, and the last
  "add the bias vector to every row" is the biased rows.  With these the reference's layers are
      h₁ = biasRelu (aggregate (x · W₁)) b₁,   h₂ = biasRelu (aggregate (h₁ · W₂)) b₂,   h₃ = biasRelu (aggregate (h₂ · W₃)) b₃,
      result = pool h₃ · Wl + bl
  where `aggregate` and `pool` are the gather / scatter-add chains, which are never opened.
-/
import proofs.«172641_j618475290672_1_alg».proof.Proof.RefReadP
import proofs.«172641_j618475290672_1_alg».proof.Proof.LibDenseStages

noncomputable section

namespace Cert.ReferenceIdeal.Forms

open Cert.ReferenceIdeal Cert.ReferenceIdeal.Gen Cert.ReferenceIdeal.ReadP Idealize.ShloMosaic Idealize.ShloMosaic.TcCoe Idealize.ShloMosaic.ValueIdx
open Cert.Gcn Cert.LayerLaws

/-- The first layer's host product is the matrix product. -/
theorem dot30_eq (A : Mat 100000 30) (B : Mat 30 40) :
    Host.dotGeneral (F := Ideal) (φ₁ := .f32) (φ₂ := .f32) dot_S100000x30_S30x40_S100000x40_1_0_0_1_n_n none A B = mm A B := by
  funext i
  obtain ⟨p, q, rfl⟩ : ∃ (p : Fin 100000) (q : Fin 40), i = ix2 p q := ⟨i 0, i 1, eq_ix2 i⟩
  exact Cert.Gcn.dotGeneral_apply dot_S100000x30_S30x40_S100000x40_1_0_0_1_n_n _ rfl rfl lhs_main_v33_0 lhs_main_v33_1 rhs_main_v33_0 rhs_main_v33_1 A B p q

/-- The inner layers' host product is the matrix product. -/
theorem dot40_eq (A : Mat 100000 40) (B : Mat 40 40) :
    Host.dotGeneral (F := Ideal) (φ₁ := .f32) (φ₂ := .f32) dot_S100000x40_S40x40_S100000x40_1_0_0_1_n_n none A B = mm A B := by
  funext i
  obtain ⟨p, q, rfl⟩ : ∃ (p : Fin 100000) (q : Fin 40), i = ix2 p q := ⟨i 0, i 1, eq_ix2 i⟩
  exact Cert.Gcn.dotGeneral_apply dot_S100000x40_S40x40_S100000x40_1_0_0_1_n_n _ rfl rfl lhs_main_v50_0 lhs_main_v50_1 rhs_main_v50_0 rhs_main_v50_1 A B p q

/-- The head's host product is the matrix product. -/
theorem dot2_eq (A : Mat 1024 40) (B : Mat 40 2) :
    Host.dotGeneral (F := Ideal) (φ₁ := .f32) (φ₂ := .f32) dot_S1024x40_S40x2_S1024x2_1_0_0_1_n_n none A B = mm A B := by
  funext i
  obtain ⟨p, q, rfl⟩ : ∃ (p : Fin 1024) (q : Fin 2), i = ix2 p q := ⟨i 0, i 1, eq_ix2 i⟩
  exact Cert.Gcn.dotGeneral_apply dot_S1024x40_S40x2_S1024x2_1_0_0_1_n_n _ rfl rfl lhs_main_v96_0 lhs_main_v96_1 rhs_main_v96_0 rhs_main_v96_1 A B p q

/-- "Add the bias vector to every row, then the maximum with zero" is the clamped biased rows. -/
theorem biasRelu_form (A : Mat 100000 40) (v : (⟨1, ![40]⟩ : Shape).Idx → EReal) :
    maximumf (F := Ideal) (φ := .f32) (addf (F := Ideal) (φ := .f32) A (broadcastInDim S100000x40 ![0, 1] bcast_S1x40_S100000x40_0_1 (broadcastInDim S1x40 ![1] bcast_S40_S1x40_1 v)))
        (broadcastInDim S100000x40 ![] bcast_S_S100000x40 (constant (F := Ideal) S_ .f32 0x00000000#32))
      = biasRelu A (rowVec v) := by
  funext i
  obtain ⟨p, q, rfl⟩ : ∃ (p : Fin 100000) (q : Fin 40), i = ix2 p q := ⟨i 0, i 1, eq_ix2 i⟩
  show max (A (ix2 p q) + broadcastInDim S100000x40 ![0, 1] bcast_S1x40_S100000x40_0_1 (broadcastInDim S1x40 ![1] bcast_S40_S1x40_1 v) (ix2 p q))
      (broadcastInDim S100000x40 ![] bcast_S_S100000x40 (constant (F := Ideal) S_ .f32 0x00000000#32) (ix2 p q))
    = max (A (ix2 p q) + rowVec v (ix2 (0 : Fin 1) q)) 0
  rw [bcast_rows_apply, bcast_rowVec, bcast_scalar_apply]
  show max _ (Ideal.ofBits .f32 0x00000000#32) = _
  rw [Ideal.ofBits_zero_f32]

/-- "Add the bias vector to every row" of the head is the biased rows. -/
theorem addRow_form (A : Mat 1024 2) (v : (⟨1, ![2]⟩ : Shape).Idx → EReal) :
    addf (F := Ideal) (φ := .f32) A (broadcastInDim S1024x2 ![0, 1] bcast_S1x2_S1024x2_0_1 (broadcastInDim S1x2 ![1] bcast_S2_S1x2_1 v))
      = addRow A (rowVec v) := by
  funext i
  obtain ⟨p, q, rfl⟩ : ∃ (p : Fin 1024) (q : Fin 2), i = ix2 p q := ⟨i 0, i 1, eq_ix2 i⟩
  show A (ix2 p q) + broadcastInDim S1024x2 ![0, 1] bcast_S1x2_S1024x2_0_1 (broadcastInDim S1x2 ![1] bcast_S2_S1x2_1 v) (ix2 p q)
    = A (ix2 p q) + rowVec v (ix2 (0 : Fin 1) q)
  rw [bcast_rows_apply, bcast_rowVec]

/-! ## The reference's stages, each over the stage before it -/

/-- The first product. -/
theorem stage0_form (x0 : Mat 100000 30) (x3 : Mat 30 40) :
    val_main_v33 (F := Ideal) x0 x3 = mm x0 x3 := by
  unfold val_main_v33
  exact dot30_eq x0 x3

/-- The second layer's product of the first layer's activations. -/
theorem stage1_form (x0 : Mat 100000 30) (x1 : (⟨S2x2000000, .i32⟩ : BufTy).Contents (Elt Ideal)) (x3 : Mat 30 40) (x4 : (⟨1, ![40]⟩ : Shape).Idx → EReal) (x5 : Mat 40 40) :
    val_main_v50 (F := Ideal) x0 x1 x3 x4 x5 = mm (biasRelu (val_main_v45 (F := Ideal) x0 x1 x3) (rowVec x4)) x5 := by
  unfold val_main_v50 val_main_v49 val_main_v48 val_main_v47 val_main_v46 val_main_call1_v0 val_main_call1_cst
  rw [biasRelu_form, dot40_eq]

/-- The third layer's product of the second layer's activations. -/
theorem stage2_form (x0 : Mat 100000 30) (x1 : (⟨S2x2000000, .i32⟩ : BufTy).Contents (Elt Ideal)) (x3 : Mat 30 40) (x4 : (⟨1, ![40]⟩ : Shape).Idx → EReal) (x5 : Mat 40 40) (x6 : (⟨1, ![40]⟩ : Shape).Idx → EReal) (x7 : Mat 40 40) :
    val_main_v67 (F := Ideal) x0 x1 x3 x4 x5 x6 x7 = mm (biasRelu (val_main_v62 (F := Ideal) x0 x1 x3 x4 x5) (rowVec x6)) x7 := by
  unfold val_main_v67 val_main_v66 val_main_v65 val_main_v64 val_main_v63 val_main_call2_v0 val_main_call2_cst
  rw [biasRelu_form, dot40_eq]

/-- The third layer's activations. -/
theorem stage3_form (x0 : Mat 100000 30) (x1 : (⟨S2x2000000, .i32⟩ : BufTy).Contents (Elt Ideal)) (x3 : Mat 30 40) (x4 : (⟨1, ![40]⟩ : Shape).Idx → EReal) (x5 : Mat 40 40) (x6 : (⟨1, ![40]⟩ : Shape).Idx → EReal) (x7 : Mat 40 40) (x8 : (⟨1, ![40]⟩ : Shape).Idx → EReal) :
    val_main_v83 (F := Ideal) x0 x1 x3 x4 x5 x6 x7 x8 = biasRelu (val_main_v79 (F := Ideal) x0 x1 x3 x4 x5 x6 x7) (rowVec x8) := by
  unfold val_main_v83 val_main_v82 val_main_v81 val_main_v80 val_main_call3_v0 val_main_call3_cst
  rw [biasRelu_form]

/-- The head. -/
theorem stage4_form (x0 : Mat 100000 30) (x1 : (⟨S2x2000000, .i32⟩ : BufTy).Contents (Elt Ideal)) (x2 : (⟨S100000, .i32⟩ : BufTy).Contents (Elt Ideal)) (x3 : Mat 30 40) (x4 : (⟨1, ![40]⟩ : Shape).Idx → EReal) (x5 : Mat 40 40) (x6 : (⟨1, ![40]⟩ : Shape).Idx → EReal) (x7 : Mat 40 40) (x8 : (⟨1, ![40]⟩ : Shape).Idx → EReal) (x9 : Mat 40 2) (x10 : (⟨1, ![2]⟩ : Shape).Idx → EReal) :
    val_main_v99 (F := Ideal) x0 x1 x2 x3 x4 x5 x6 x7 x8 x9 x10 = addRow (mm (val_main_v95 (F := Ideal) x0 x1 x2 x3 x4 x5 x6 x7 x8) x9) (rowVec x10) := by
  unfold val_main_v99 val_main_v98 val_main_v97 val_main_v96
  rw [addRow_form, dot2_eq]

end Cert.ReferenceIdeal.Forms

end
-- ==== Proof.Flow.lean ====
/-
  The kernel program's result, boundary by boundary.  The program alternates stretches of host operations with five
  dense stages.  Going through the segment boundaries in order, each buffer a later segment reads is identified with the
  corresponding stage of the reference:
    before the first stage    the edge lists with their self loops, the symmetric degree normalisation, the bias rows;
    after a dense stage       its output array is the stage of the arrays it was entered with (the tiling argument),
                              which is the reference's product / clamped biased rows of the same operands;
    after a host stretch      the gather – scale – scatter-add chain (or the mean pooling) of the same operands, term for term.
  The gather / scatter chains are never opened: both programs apply the same chain to equal operands.
-/
import proofs.«172641_j618475290672_1_alg».proof.Proof.Gen.KernelIdeal.Frame
import proofs.«172641_j618475290672_1_alg».proof.Proof.Region0
import proofs.«172641_j618475290672_1_alg».proof.Proof.Region1
import proofs.«172641_j618475290672_1_alg».proof.Proof.Region2
import proofs.«172641_j618475290672_1_alg».proof.Proof.Region3
import proofs.«172641_j618475290672_1_alg».proof.Proof.Region4
import proofs.«172641_j618475290672_1_alg».proof.Proof.RefForms

set_option maxRecDepth 16384

noncomputable section

namespace Cert.KernelIdeal.Flow

open Cert.KernelIdeal Cert.KernelIdeal.Gen Idealize.ShloMosaic Idealize.ShloMosaic.TcCoe Idealize.ShloMosaic.ValueIdx
open Idealize.ShloMosaic.StableHlo Idealize.SL.Sem Cert.Gcn Cert.ReferenceIdeal.ReadP Cert.ReferenceIdeal.Forms

variable (m : (ℓ : Loc nD τ sig) → Buf (Elt Ideal) ℓ) (ρ : Dev nD → PrngReg) (c : Dev nD)

/-- An argument array as launched. -/
abbrev arg (b : Ref sig .tc) : Buf (Elt Ideal) ((c.tc : Thread nD τ).loc b) := m ((c.tc : Thread nD τ).loc b)

/-! ## Before the first stage: the host operations on the launch memory -/

theorem b3_v3 : W3 m ρ c (Proc.devRef .tc main_v3) = val_main_v3 (F := Ideal) (arg m c main_arg1) := by
  show after hostOps0_2 (after hostOps0_1 (after hostOps0 (W0 m ρ c))) (Proc.devRef .tc main_v3) = _
  after_results_simp
  rfl
theorem b3_v6 : W3 m ρ c (Proc.devRef .tc main_v6) = val_main_v6 (F := Ideal) (arg m c main_arg1) := by
  show after hostOps0_2 (after hostOps0_1 (after hostOps0 (W0 m ρ c))) (Proc.devRef .tc main_v6) = _
  after_results_simp
  rfl
/-- The first stretch of host operations, cut after the two edge lists are built. -/
theorem split0 (V : Valuation τ sig (Elt Ideal)) :
    after hostOps0 V = after (hostOps0.drop 7) (after (hostOps0.take 7) V) := by
  rw [← StableHlo.after_append, List.take_append_drop]

/-- The target list with its self loops, once built. -/
theorem a_v6 : after (hostOps0.take 7) (W0 m ρ c) (Proc.devRef .tc main_v6) = val_main_v6 (F := Ideal) (arg m c main_arg1) := by
  simp only [hostOps0, List.take_succ_cons, List.take_zero]
  after_results_simp
  rfl

/-- Which nodes have a positive degree: the degree is a scatter-add of ones along the target list, carried as one name. -/
theorem b1_v12 : W1 m ρ c (Proc.devRef .tc main_v12) = val_main_v12 (F := Ideal) (arg m c main_arg1) := by
  show after hostOps0 (W0 m ρ c) (Proc.devRef .tc main_v12) = _
  rw [split0]
  have h6 := a_v6 m ρ c
  generalize after (hostOps0.take 7) (W0 m ρ c) = Va at h6 ⊢
  simp only [hostOps0, List.drop_succ_cons, List.drop_zero]
  after_results_simp
  try rw [h6]
  rfl
/-- The inverse square roots of the degrees clamped below at one. -/
theorem b1_v15 : W1 m ρ c (Proc.devRef .tc main_v15) = val_main_v15 (F := Ideal) (arg m c main_arg1) := by
  show after hostOps0 (W0 m ρ c) (Proc.devRef .tc main_v15) = _
  rw [split0]
  have h6 := a_v6 m ρ c
  generalize after (hostOps0.take 7) (W0 m ρ c) = Va at h6 ⊢
  simp only [hostOps0, List.drop_succ_cons, List.drop_zero]
  after_results_simp
  try rw [h6]
  rfl
/-- The zero the isolated nodes get. -/
theorem b1_cst3 : W1 m ρ c (Proc.devRef .tc main_cst_3) = val_main_cst_3 (F := Ideal) := by
  show after hostOps0 (W0 m ρ c) (Proc.devRef .tc main_cst_3) = _
  rw [split0]
  have h6 := a_v6 m ρ c
  generalize after (hostOps0.take 7) (W0 m ρ c) = Va at h6 ⊢
  simp only [hostOps0, List.drop_succ_cons, List.drop_zero]
  after_results_simp
  try rw [h6]
  rfl
/-- The selection between two vectors and a broadcast scalar, the contents moved to the buffers' own types and back
    (the moves are the identity: each buffer's type is the value's). -/
theorem sel_form (a : (⟨S100000, .i1⟩ : BufTy).Contents (Elt Ideal)) (b : (⟨S100000, .f32⟩ : BufTy).Contents (Elt Ideal)) (z : (⟨S_, .f32⟩ : BufTy).Contents (Elt Ideal)) :
    (TRef.of (sig := sig) (T := ⟨S100000, .f32⟩) main_v16).toBuf (Val := Elt Ideal) (select ((TRef.of (sig := sig) (T := ⟨S100000, .i1⟩) main_v12).ofBuf (Val := Elt Ideal) a) ((TRef.of (sig := sig) (T := ⟨S100000, .f32⟩) main_v15).ofBuf (Val := Elt Ideal) b)
      ((TRef.of (sig := sig) (T := ⟨S100000, .f32⟩) main_call0_v1).ofBuf ((TRef.of (sig := sig) (T := ⟨S100000, .f32⟩) main_call0_v1).toBuf (Val := Elt Ideal) (broadcastInDim S100000 ![] bcast_S_S100000 ((TRef.of (sig := sig) (T := ⟨S_, .f32⟩) main_call0_v0).ofBuf ((TRef.of (sig := sig) (T := ⟨S_, .f32⟩) main_call0_v0).toBuf (Val := Elt Ideal) (id ((TRef.of (sig := sig) (T := ⟨S_, .f32⟩) main_cst_3).ofBuf (Val := Elt Ideal) z))))))))
    = select a b (broadcastInDim Cert.ReferenceIdeal.S100000 ![] Cert.ReferenceIdeal.Gen.bcast_S_S100000 (id z)) := by
  rfl

/-- The inverse square roots where the degree is positive, zero elsewhere. -/
theorem b2_v16 : W2 m ρ c (Proc.devRef .tc main_v16) = val_main_v16 (F := Ideal) (arg m c main_arg1) := by
  show after hostOps0_1 (W1 m ρ c) (Proc.devRef .tc main_v16) = _
  have h12 := b1_v12 m ρ c
  have h15 := b1_v15 m ρ c
  have hc := b1_cst3 m ρ c
  generalize W1 m ρ c = V1 at h12 h15 hc ⊢
  after_results_simp
  rw [h12, h15, hc]
  exact sel_form _ _ _

theorem b2_v3 : W2 m ρ c (Proc.devRef .tc main_v3) = val_main_v3 (F := Ideal) (arg m c main_arg1) := by
  show after hostOps0_1 (after hostOps0 (W0 m ρ c)) (Proc.devRef .tc main_v3) = _
  after_results_simp
  rfl
theorem b2_v6 : W2 m ρ c (Proc.devRef .tc main_v6) = val_main_v6 (F := Ideal) (arg m c main_arg1) := by
  show after hostOps0_1 (after hostOps0 (W0 m ρ c)) (Proc.devRef .tc main_v6) = _
  after_results_simp
  rfl
/-- The edge normalisation: the product of the two gathered inverse square roots. -/
theorem b3_v32 : W3 m ρ c (Proc.devRef .tc main_v32) = val_main_v32 (F := Ideal) (arg m c main_arg1) := by
  show after hostOps0_2 (W2 m ρ c) (Proc.devRef .tc main_v32) = _
  have h16 := b2_v16 m ρ c
  have h3 := b2_v3 m ρ c
  have h6 := b2_v6 m ρ c
  generalize W2 m ρ c = V2 at h16 h3 h6 ⊢
  after_results_simp
  rw [h16, h3, h6]
  rfl
theorem b3_v33 : W3 m ρ c (Proc.devRef .tc main_v33) = rowVec (b := 40) (arg m c main_arg4) := by
  show after hostOps0_2 (after hostOps0_1 (after hostOps0 (W0 m ρ c))) (Proc.devRef .tc main_v33) = _
  after_results_simp
  exact shapeCast_rowVec (b := 40) (arg m c main_arg4) shapeCasts_S40_S1x40
theorem b3_v34 : W3 m ρ c (Proc.devRef .tc main_v34) = rowVec (b := 40) (arg m c main_arg6) := by
  show after hostOps0_2 (after hostOps0_1 (after hostOps0 (W0 m ρ c))) (Proc.devRef .tc main_v34) = _
  after_results_simp
  exact shapeCast_rowVec (b := 40) (arg m c main_arg6) shapeCasts_S40_S1x40
theorem b3_v35 : W3 m ρ c (Proc.devRef .tc main_v35) = rowVec (b := 40) (arg m c main_arg8) := by
  show after hostOps0_2 (after hostOps0_1 (after hostOps0 (W0 m ρ c))) (Proc.devRef .tc main_v35) = _
  after_results_simp
  exact shapeCast_rowVec (b := 40) (arg m c main_arg8) shapeCasts_S40_S1x40
theorem b3_v36 : W3 m ρ c (Proc.devRef .tc main_v36) = rowVec (b := 2) (arg m c main_arg10) := by
  show after hostOps0_2 (after hostOps0_1 (after hostOps0 (W0 m ρ c))) (Proc.devRef .tc main_v36) = _
  after_results_simp
  exact shapeCast_rowVec (b := 2) (arg m c main_arg10) shapeCasts_S2_S1x2
theorem b3_arg0 : W3 m ρ c (Proc.devRef .tc main_arg0) = arg m c main_arg0 := by
  show after hostOps0_2 (after hostOps0_1 (after hostOps0 (W0 m ρ c))) (Proc.devRef .tc main_arg0) = _
  after_results_simp <;> rfl
theorem b3_arg2 : W3 m ρ c (Proc.devRef .tc main_arg2) = arg m c main_arg2 := by
  show after hostOps0_2 (after hostOps0_1 (after hostOps0 (W0 m ρ c))) (Proc.devRef .tc main_arg2) = _
  after_results_simp <;> rfl
theorem b3_arg3 : W3 m ρ c (Proc.devRef .tc main_arg3) = arg m c main_arg3 := by
  show after hostOps0_2 (after hostOps0_1 (after hostOps0 (W0 m ρ c))) (Proc.devRef .tc main_arg3) = _
  after_results_simp <;> rfl
theorem b3_arg5 : W3 m ρ c (Proc.devRef .tc main_arg5) = arg m c main_arg5 := by
  show after hostOps0_2 (after hostOps0_1 (after hostOps0 (W0 m ρ c))) (Proc.devRef .tc main_arg5) = _
  after_results_simp <;> rfl
theorem b3_arg7 : W3 m ρ c (Proc.devRef .tc main_arg7) = arg m c main_arg7 := by
  show after hostOps0_2 (after hostOps0_1 (after hostOps0 (W0 m ρ c))) (Proc.devRef .tc main_arg7) = _
  after_results_simp <;> rfl
theorem b3_arg9 : W3 m ρ c (Proc.devRef .tc main_arg9) = arg m c main_arg9 := by
  show after hostOps0_2 (after hostOps0_1 (after hostOps0 (W0 m ρ c))) (Proc.devRef .tc main_arg9) = _
  after_results_simp <;> rfl

/-! ## The first stage: the features times the first weights -/

theorem b4_v37 : W4 m ρ c (Proc.devRef .tc main_v37) = val_main_v33 (F := Ideal) (arg m c main_arg0) (arg m c main_arg3) :=
  (W4_arr m ρ c 2).trans ((Flow0.final_of (V3 m ρ) c _ _ (b3_arg0 m ρ c) (b3_arg3 m ρ c)).trans (stage0_form _ _).symm)
theorem b4_v3 : W4 m ρ c (Proc.devRef .tc main_v3) = val_main_v3 (F := Ideal) (arg m c main_arg1) :=
  (W4_of_ne m ρ c main_v3 (by decide)).trans (b3_v3 m ρ c)
theorem b4_v6 : W4 m ρ c (Proc.devRef .tc main_v6) = val_main_v6 (F := Ideal) (arg m c main_arg1) :=
  (W4_of_ne m ρ c main_v6 (by decide)).trans (b3_v6 m ρ c)
theorem b4_v32 : W4 m ρ c (Proc.devRef .tc main_v32) = val_main_v32 (F := Ideal) (arg m c main_arg1) :=
  (W4_of_ne m ρ c main_v32 (by decide)).trans (b3_v32 m ρ c)
theorem b4_v33 : W4 m ρ c (Proc.devRef .tc main_v33) = rowVec (b := 40) (arg m c main_arg4) :=
  (W4_of_ne m ρ c main_v33 (by decide)).trans (b3_v33 m ρ c)
theorem b4_v34 : W4 m ρ c (Proc.devRef .tc main_v34) = rowVec (b := 40) (arg m c main_arg6) :=
  (W4_of_ne m ρ c main_v34 (by decide)).trans (b3_v34 m ρ c)
theorem b4_v35 : W4 m ρ c (Proc.devRef .tc main_v35) = rowVec (b := 40) (arg m c main_arg8) :=
  (W4_of_ne m ρ c main_v35 (by decide)).trans (b3_v35 m ρ c)
theorem b4_v36 : W4 m ρ c (Proc.devRef .tc main_v36) = rowVec (b := 2) (arg m c main_arg10) :=
  (W4_of_ne m ρ c main_v36 (by decide)).trans (b3_v36 m ρ c)
theorem b4_arg2 : W4 m ρ c (Proc.devRef .tc main_arg2) = arg m c main_arg2 :=
  (W4_of_ne m ρ c main_arg2 (by decide)).trans (b3_arg2 m ρ c)
theorem b4_arg5 : W4 m ρ c (Proc.devRef .tc main_arg5) = arg m c main_arg5 :=
  (W4_of_ne m ρ c main_arg5 (by decide)).trans (b3_arg5 m ρ c)
theorem b4_arg7 : W4 m ρ c (Proc.devRef .tc main_arg7) = arg m c main_arg7 :=
  (W4_of_ne m ρ c main_arg7 (by decide)).trans (b3_arg7 m ρ c)
theorem b4_arg9 : W4 m ρ c (Proc.devRef .tc main_arg9) = arg m c main_arg9 :=
  (W4_of_ne m ρ c main_arg9 (by decide)).trans (b3_arg9 m ρ c)

/-! ## The first aggregation -/

theorem b5_v49 : W5 m ρ c (Proc.devRef .tc main_v49) = val_main_v45 (F := Ideal) (arg m c main_arg0) (arg m c main_arg1) (arg m c main_arg3) := by
  show after hostOps1 (W4 m ρ c) (Proc.devRef .tc main_v49) = _
  after_results_simp
  rw [b4_v37 m ρ c, b4_v3 m ρ c, b4_v6 m ρ c, b4_v32 m ρ c]
  rfl
theorem b5_v3 : W5 m ρ c (Proc.devRef .tc main_v3) = val_main_v3 (F := Ideal) (arg m c main_arg1) :=
  (show after hostOps1 (W4 m ρ c) (Proc.devRef .tc main_v3) = W4 m ρ c (Proc.devRef .tc main_v3) by after_results_simp).trans (b4_v3 m ρ c)
theorem b5_v6 : W5 m ρ c (Proc.devRef .tc main_v6) = val_main_v6 (F := Ideal) (arg m c main_arg1) :=
  (show after hostOps1 (W4 m ρ c) (Proc.devRef .tc main_v6) = W4 m ρ c (Proc.devRef .tc main_v6) by after_results_simp).trans (b4_v6 m ρ c)
theorem b5_v32 : W5 m ρ c (Proc.devRef .tc main_v32) = val_main_v32 (F := Ideal) (arg m c main_arg1) :=
  (show after hostOps1 (W4 m ρ c) (Proc.devRef .tc main_v32) = W4 m ρ c (Proc.devRef .tc main_v32) by after_results_simp).trans (b4_v32 m ρ c)
theorem b5_v33 : W5 m ρ c (Proc.devRef .tc main_v33) = rowVec (b := 40) (arg m c main_arg4) :=
  (show after hostOps1 (W4 m ρ c) (Proc.devRef .tc main_v33) = W4 m ρ c (Proc.devRef .tc main_v33) by after_results_simp).trans (b4_v33 m ρ c)
theorem b5_v34 : W5 m ρ c (Proc.devRef .tc main_v34) = rowVec (b := 40) (arg m c main_arg6) :=
  (show after hostOps1 (W4 m ρ c) (Proc.devRef .tc main_v34) = W4 m ρ c (Proc.devRef .tc main_v34) by after_results_simp).trans (b4_v34 m ρ c)
theorem b5_v35 : W5 m ρ c (Proc.devRef .tc main_v35) = rowVec (b := 40) (arg m c main_arg8) :=
  (show after hostOps1 (W4 m ρ c) (Proc.devRef .tc main_v35) = W4 m ρ c (Proc.devRef .tc main_v35) by after_results_simp).trans (b4_v35 m ρ c)
theorem b5_v36 : W5 m ρ c (Proc.devRef .tc main_v36) = rowVec (b := 2) (arg m c main_arg10) :=
  (show after hostOps1 (W4 m ρ c) (Proc.devRef .tc main_v36) = W4 m ρ c (Proc.devRef .tc main_v36) by after_results_simp).trans (b4_v36 m ρ c)
theorem b5_arg2 : W5 m ρ c (Proc.devRef .tc main_arg2) = arg m c main_arg2 :=
  (show after hostOps1 (W4 m ρ c) (Proc.devRef .tc main_arg2) = W4 m ρ c (Proc.devRef .tc main_arg2) by after_results_simp).trans (b4_arg2 m ρ c)
theorem b5_arg5 : W5 m ρ c (Proc.devRef .tc main_arg5) = arg m c main_arg5 :=
  (show after hostOps1 (W4 m ρ c) (Proc.devRef .tc main_arg5) = W4 m ρ c (Proc.devRef .tc main_arg5) by after_results_simp).trans (b4_arg5 m ρ c)
theorem b5_arg7 : W5 m ρ c (Proc.devRef .tc main_arg7) = arg m c main_arg7 :=
  (show after hostOps1 (W4 m ρ c) (Proc.devRef .tc main_arg7) = W4 m ρ c (Proc.devRef .tc main_arg7) by after_results_simp).trans (b4_arg7 m ρ c)
theorem b5_arg9 : W5 m ρ c (Proc.devRef .tc main_arg9) = arg m c main_arg9 :=
  (show after hostOps1 (W4 m ρ c) (Proc.devRef .tc main_arg9) = W4 m ρ c (Proc.devRef .tc main_arg9) by after_results_simp).trans (b4_arg9 m ρ c)

/-! ## The second stage -/

theorem b6_v50 : W6 m ρ c (Proc.devRef .tc main_v50) = val_main_v50 (F := Ideal) (arg m c main_arg0) (arg m c main_arg1) (arg m c main_arg3) (arg m c main_arg4) (arg m c main_arg5) :=
  (W6_arr m ρ c 3).trans ((Flow1.final_of (V5 m ρ) c _ _ _ (b5_v49 m ρ c) (b5_v33 m ρ c) (b5_arg5 m ρ c)).trans (stage1_form _ _ _ _ _).symm)
theorem b6_v3 : W6 m ρ c (Proc.devRef .tc main_v3) = val_main_v3 (F := Ideal) (arg m c main_arg1) :=
  (W6_of_ne m ρ c main_v3 (by decide)).trans (b5_v3 m ρ c)
theorem b6_v6 : W6 m ρ c (Proc.devRef .tc main_v6) = val_main_v6 (F := Ideal) (arg m c main_arg1) :=
  (W6_of_ne m ρ c main_v6 (by decide)).trans (b5_v6 m ρ c)
theorem b6_v32 : W6 m ρ c (Proc.devRef .tc main_v32) = val_main_v32 (F := Ideal) (arg m c main_arg1) :=
  (W6_of_ne m ρ c main_v32 (by decide)).trans (b5_v32 m ρ c)
theorem b6_v34 : W6 m ρ c (Proc.devRef .tc main_v34) = rowVec (b := 40) (arg m c main_arg6) :=
  (W6_of_ne m ρ c main_v34 (by decide)).trans (b5_v34 m ρ c)
theorem b6_v35 : W6 m ρ c (Proc.devRef .tc main_v35) = rowVec (b := 40) (arg m c main_arg8) :=
  (W6_of_ne m ρ c main_v35 (by decide)).trans (b5_v35 m ρ c)
theorem b6_v36 : W6 m ρ c (Proc.devRef .tc main_v36) = rowVec (b := 2) (arg m c main_arg10) :=
  (W6_of_ne m ρ c main_v36 (by decide)).trans (b5_v36 m ρ c)
theorem b6_arg2 : W6 m ρ c (Proc.devRef .tc main_arg2) = arg m c main_arg2 :=
  (W6_of_ne m ρ c main_arg2 (by decide)).trans (b5_arg2 m ρ c)
theorem b6_arg7 : W6 m ρ c (Proc.devRef .tc main_arg7) = arg m c main_arg7 :=
  (W6_of_ne m ρ c main_arg7 (by decide)).trans (b5_arg7 m ρ c)
theorem b6_arg9 : W6 m ρ c (Proc.devRef .tc main_arg9) = arg m c main_arg9 :=
  (W6_of_ne m ρ c main_arg9 (by decide)).trans (b5_arg9 m ρ c)

/-! ## The second aggregation -/

theorem b7_v62 : W7 m ρ c (Proc.devRef .tc main_v62) = val_main_v62 (F := Ideal) (arg m c main_arg0) (arg m c main_arg1) (arg m c main_arg3) (arg m c main_arg4) (arg m c main_arg5) := by
  show after hostOps2 (W6 m ρ c) (Proc.devRef .tc main_v62) = _
  after_results_simp
  rw [b6_v50 m ρ c, b6_v3 m ρ c, b6_v6 m ρ c, b6_v32 m ρ c]
  rfl
theorem b7_v3 : W7 m ρ c (Proc.devRef .tc main_v3) = val_main_v3 (F := Ideal) (arg m c main_arg1) :=
  (show after hostOps2 (W6 m ρ c) (Proc.devRef .tc main_v3) = W6 m ρ c (Proc.devRef .tc main_v3) by after_results_simp).trans (b6_v3 m ρ c)
theorem b7_v6 : W7 m ρ c (Proc.devRef .tc main_v6) = val_main_v6 (F := Ideal) (arg m c main_arg1) :=
  (show after hostOps2 (W6 m ρ c) (Proc.devRef .tc main_v6) = W6 m ρ c (Proc.devRef .tc main_v6) by after_results_simp).trans (b6_v6 m ρ c)
theorem b7_v32 : W7 m ρ c (Proc.devRef .tc main_v32) = val_main_v32 (F := Ideal) (arg m c main_arg1) :=
  (show after hostOps2 (W6 m ρ c) (Proc.devRef .tc main_v32) = W6 m ρ c (Proc.devRef .tc main_v32) by after_results_simp).trans (b6_v32 m ρ c)
theorem b7_v34 : W7 m ρ c (Proc.devRef .tc main_v34) = rowVec (b := 40) (arg m c main_arg6) :=
  (show after hostOps2 (W6 m ρ c) (Proc.devRef .tc main_v34) = W6 m ρ c (Proc.devRef .tc main_v34) by after_results_simp).trans (b6_v34 m ρ c)
theorem b7_v35 : W7 m ρ c (Proc.devRef .tc main_v35) = rowVec (b := 40) (arg m c main_arg8) :=
  (show after hostOps2 (W6 m ρ c) (Proc.devRef .tc main_v35) = W6 m ρ c (Proc.devRef .tc main_v35) by after_results_simp).trans (b6_v35 m ρ c)
theorem b7_v36 : W7 m ρ c (Proc.devRef .tc main_v36) = rowVec (b := 2) (arg m c main_arg10) :=
  (show after hostOps2 (W6 m ρ c) (Proc.devRef .tc main_v36) = W6 m ρ c (Proc.devRef .tc main_v36) by after_results_simp).trans (b6_v36 m ρ c)
theorem b7_arg2 : W7 m ρ c (Proc.devRef .tc main_arg2) = arg m c main_arg2 :=
  (show after hostOps2 (W6 m ρ c) (Proc.devRef .tc main_arg2) = W6 m ρ c (Proc.devRef .tc main_arg2) by after_results_simp).trans (b6_arg2 m ρ c)
theorem b7_arg7 : W7 m ρ c (Proc.devRef .tc main_arg7) = arg m c main_arg7 :=
  (show after hostOps2 (W6 m ρ c) (Proc.devRef .tc main_arg7) = W6 m ρ c (Proc.devRef .tc main_arg7) by after_results_simp).trans (b6_arg7 m ρ c)
theorem b7_arg9 : W7 m ρ c (Proc.devRef .tc main_arg9) = arg m c main_arg9 :=
  (show after hostOps2 (W6 m ρ c) (Proc.devRef .tc main_arg9) = W6 m ρ c (Proc.devRef .tc main_arg9) by after_results_simp).trans (b6_arg9 m ρ c)

/-! ## The third stage -/

theorem b8_v63 : W8 m ρ c (Proc.devRef .tc main_v63) = val_main_v67 (F := Ideal) (arg m c main_arg0) (arg m c main_arg1) (arg m c main_arg3) (arg m c main_arg4) (arg m c main_arg5) (arg m c main_arg6) (arg m c main_arg7) :=
  (W8_arr m ρ c 3).trans ((Flow2.final_of (V7 m ρ) c _ _ _ (b7_v62 m ρ c) (b7_v34 m ρ c) (b7_arg7 m ρ c)).trans (stage2_form _ _ _ _ _ _ _).symm)
theorem b8_v3 : W8 m ρ c (Proc.devRef .tc main_v3) = val_main_v3 (F := Ideal) (arg m c main_arg1) :=
  (W8_of_ne m ρ c main_v3 (by decide)).trans (b7_v3 m ρ c)
theorem b8_v6 : W8 m ρ c (Proc.devRef .tc main_v6) = val_main_v6 (F := Ideal) (arg m c main_arg1) :=
  (W8_of_ne m ρ c main_v6 (by decide)).trans (b7_v6 m ρ c)
theorem b8_v32 : W8 m ρ c (Proc.devRef .tc main_v32) = val_main_v32 (F := Ideal) (arg m c main_arg1) :=
  (W8_of_ne m ρ c main_v32 (by decide)).trans (b7_v32 m ρ c)
theorem b8_v35 : W8 m ρ c (Proc.devRef .tc main_v35) = rowVec (b := 40) (arg m c main_arg8) :=
  (W8_of_ne m ρ c main_v35 (by decide)).trans (b7_v35 m ρ c)
theorem b8_v36 : W8 m ρ c (Proc.devRef .tc main_v36) = rowVec (b := 2) (arg m c main_arg10) :=
  (W8_of_ne m ρ c main_v36 (by decide)).trans (b7_v36 m ρ c)
theorem b8_arg2 : W8 m ρ c (Proc.devRef .tc main_arg2) = arg m c main_arg2 :=
  (W8_of_ne m ρ c main_arg2 (by decide)).trans (b7_arg2 m ρ c)
theorem b8_arg9 : W8 m ρ c (Proc.devRef .tc main_arg9) = arg m c main_arg9 :=
  (W8_of_ne m ρ c main_arg9 (by decide)).trans (b7_arg9 m ρ c)

/-! ## The third aggregation -/

theorem b9_v75 : W9 m ρ c (Proc.devRef .tc main_v75) = val_main_v79 (F := Ideal) (arg m c main_arg0) (arg m c main_arg1) (arg m c main_arg3) (arg m c main_arg4) (arg m c main_arg5) (arg m c main_arg6) (arg m c main_arg7) := by
  show after hostOps3 (W8 m ρ c) (Proc.devRef .tc main_v75) = _
  after_results_simp
  rw [b8_v63 m ρ c, b8_v3 m ρ c, b8_v6 m ρ c, b8_v32 m ρ c]
  rfl
theorem b9_v3 : W9 m ρ c (Proc.devRef .tc main_v3) = val_main_v3 (F := Ideal) (arg m c main_arg1) :=
  (show after hostOps3 (W8 m ρ c) (Proc.devRef .tc main_v3) = W8 m ρ c (Proc.devRef .tc main_v3) by after_results_simp).trans (b8_v3 m ρ c)
theorem b9_v6 : W9 m ρ c (Proc.devRef .tc main_v6) = val_main_v6 (F := Ideal) (arg m c main_arg1) :=
  (show after hostOps3 (W8 m ρ c) (Proc.devRef .tc main_v6) = W8 m ρ c (Proc.devRef .tc main_v6) by after_results_simp).trans (b8_v6 m ρ c)
theorem b9_v32 : W9 m ρ c (Proc.devRef .tc main_v32) = val_main_v32 (F := Ideal) (arg m c main_arg1) :=
  (show after hostOps3 (W8 m ρ c) (Proc.devRef .tc main_v32) = W8 m ρ c (Proc.devRef .tc main_v32) by after_results_simp).trans (b8_v32 m ρ c)
theorem b9_v35 : W9 m ρ c (Proc.devRef .tc main_v35) = rowVec (b := 40) (arg m c main_arg8) :=
  (show after hostOps3 (W8 m ρ c) (Proc.devRef .tc main_v35) = W8 m ρ c (Proc.devRef .tc main_v35) by after_results_simp).trans (b8_v35 m ρ c)
theorem b9_v36 : W9 m ρ c (Proc.devRef .tc main_v36) = rowVec (b := 2) (arg m c main_arg10) :=
  (show after hostOps3 (W8 m ρ c) (Proc.devRef .tc main_v36) = W8 m ρ c (Proc.devRef .tc main_v36) by after_results_simp).trans (b8_v36 m ρ c)
theorem b9_arg2 : W9 m ρ c (Proc.devRef .tc main_arg2) = arg m c main_arg2 :=
  (show after hostOps3 (W8 m ρ c) (Proc.devRef .tc main_arg2) = W8 m ρ c (Proc.devRef .tc main_arg2) by after_results_simp).trans (b8_arg2 m ρ c)
theorem b9_arg9 : W9 m ρ c (Proc.devRef .tc main_arg9) = arg m c main_arg9 :=
  (show after hostOps3 (W8 m ρ c) (Proc.devRef .tc main_arg9) = W8 m ρ c (Proc.devRef .tc main_arg9) by after_results_simp).trans (b8_arg9 m ρ c)

/-! ## The last activation -/

theorem b10_v76 : W10 m ρ c (Proc.devRef .tc main_v76) = val_main_v83 (F := Ideal) (arg m c main_arg0) (arg m c main_arg1) (arg m c main_arg3) (arg m c main_arg4) (arg m c main_arg5) (arg m c main_arg6) (arg m c main_arg7) (arg m c main_arg8) :=
  (W10_arr m ρ c 2).trans ((Flow3.final_of (V9 m ρ) c _ _ (b9_v75 m ρ c) (b9_v35 m ρ c)).trans (stage3_form _ _ _ _ _ _ _ _).symm)
theorem b10_v36 : W10 m ρ c (Proc.devRef .tc main_v36) = rowVec (b := 2) (arg m c main_arg10) :=
  (W10_of_ne m ρ c main_v36 (by decide)).trans (b9_v36 m ρ c)
theorem b10_arg2 : W10 m ρ c (Proc.devRef .tc main_arg2) = arg m c main_arg2 :=
  (W10_of_ne m ρ c main_arg2 (by decide)).trans (b9_arg2 m ρ c)
theorem b10_arg9 : W10 m ρ c (Proc.devRef .tc main_arg9) = arg m c main_arg9 :=
  (W10_of_ne m ρ c main_arg9 (by decide)).trans (b9_arg9 m ρ c)

/-! ## The mean pooling -/

theorem b11_v88 : W11 m ρ c (Proc.devRef .tc main_v88) = val_main_v95 (F := Ideal) (arg m c main_arg0) (arg m c main_arg1) (arg m c main_arg2) (arg m c main_arg3) (arg m c main_arg4) (arg m c main_arg5) (arg m c main_arg6) (arg m c main_arg7) (arg m c main_arg8) := by
  show after hostOps4 (W10 m ρ c) (Proc.devRef .tc main_v88) = _
  after_results_simp
  rw [b10_v76 m ρ c, b10_arg2 m ρ c]
  rfl
theorem b11_v36 : W11 m ρ c (Proc.devRef .tc main_v36) = rowVec (b := 2) (arg m c main_arg10) :=
  (show after hostOps4 (W10 m ρ c) (Proc.devRef .tc main_v36) = W10 m ρ c (Proc.devRef .tc main_v36) by after_results_simp).trans (b10_v36 m ρ c)
theorem b11_arg9 : W11 m ρ c (Proc.devRef .tc main_arg9) = arg m c main_arg9 :=
  (show after hostOps4 (W10 m ρ c) (Proc.devRef .tc main_arg9) = W10 m ρ c (Proc.devRef .tc main_arg9) by after_results_simp).trans (b10_arg9 m ρ c)

/-! ## The head -/

/-- The kernel program's result buffer at the return is the reference's last stage of the launched arguments. -/
theorem result : W12 m ρ c (Proc.devRef .tc main_v89) = val_main_v99 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) :=
  (W12_arr m ρ c 3).trans ((Flow4.final_of (V11 m ρ) c _ _ _ (b11_v88 m ρ c) (b11_arg9 m ρ c) (b11_v36 m ρ c)).trans (stage4_form _ _ _ _ _ _ _ _ _ _ _).symm)

end Cert.KernelIdeal.Flow

end
-- ==== Proof.lean ====
/-
  A three-layer graph convolution network with mean pooling and a linear head, against its plain reference.

  Both programs build the same edge lists (the given edges plus one self loop per node), the same symmetric degree
  normalisation `norm = d(src)^(-1/2) · d(dst)^(-1/2)`, and aggregate by the same gather – scale – scatter-add chain.
  They differ only in the dense stages: the reference computes `relu (aggregate (h · W) + b)` with host products and a
  broadcast bias vector; the kernel program computes the products, and the "add the bias row, clamp at zero" steps, in
  five tiled stages whose factors are first rounded to a narrower float format.  On the extended reals a change of float
  format is the identity and a product into a zero accumulator is the plain sum over the inner coordinate, so each
  tiled stage leaves in its output array exactly the reference's stage of the same operands (rows are independent, the
  tiles of 20000 rows cover the array), and the host chains between the stages are applied to equal operands.  No law
  used distributes a product over a sum, so the finiteness of the inputs is never needed.

  The frames of the two kernel programs are the generated ones; the reference's frame is its run with the result
  dropped; nothing was rewritten by the idealisation, so `preserves` is trivial.
-/
import proofs.«172641_j618475290672_1_alg».proof.Defs
import proofs.«172641_j618475290672_1_alg».proof.Proof.Gen.Kernel
import proofs.«172641_j618475290672_1_alg».proof.Proof.Gen.Kernel.Skeleton
import proofs.«172641_j618475290672_1_alg».proof.Proof.Gen.Kernel.Launch
import proofs.«172641_j618475290672_1_alg».proof.Proof.Gen.Kernel.Points
import proofs.«172641_j618475290672_1_alg».proof.Proof.Gen.Kernel.Frame
import proofs.«172641_j618475290672_1_alg».proof.Proof.Gen.KernelIdeal
import proofs.«172641_j618475290672_1_alg».proof.Proof.Gen.KernelIdeal.Skeleton
import proofs.«172641_j618475290672_1_alg».proof.Proof.Gen.KernelIdeal.Launch
import proofs.«172641_j618475290672_1_alg».proof.Proof.Gen.KernelIdeal.Points
import proofs.«172641_j618475290672_1_alg».proof.Proof.Gen.KernelIdeal.Frame
import proofs.«172641_j618475290672_1_alg».proof.Proof.Gen.ReferenceIdeal
import proofs.«172641_j618475290672_1_alg».proof.Proof.Gen.Pre_finite_inputs
import proofs.«172641_j618475290672_1_alg».proof.Proof.RefRunP
import proofs.«172641_j618475290672_1_alg».proof.Proof.RefReadP
import proofs.«172641_j618475290672_1_alg».proof.Proof.Run
import proofs.«172641_j618475290672_1_alg».proof.Proof.Flow
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the reference's last stage of those arguments in
    their result buffers: the kernel program's run read boundary by boundary, the reference's run as generated. -/
theorem algebraic : Cert.algebraic_KernelIdeal_ReferenceIdeal := by
  intro m ρ m' ρ' _ hagree
  refine ⟨fun c => Cert.ReferenceIdeal.ReadP.val_main_v99 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (Cert.KernelIdeal.Flow.result m ρ c), (h c).2⟩)
      (Cert.KernelIdeal.Flow.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9, e10⟩ := hagree c
    rw [Cert.ReferenceIdeal.ReadP.val_main_v99_eq, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
